-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x2 : Shape := ⟨2, ![40000, 2]⟩
abbrev S640000 : Shape := ⟨1, ![640000]⟩
abbrev S2x128 : Shape := ⟨2, ![2, 128]⟩
abbrev S128 : Shape := ⟨1, ![128]⟩
abbrev S128x128 : Shape := ⟨2, ![128, 128]⟩
abbrev S_ : Shape := ⟨0, ![]⟩

class Facts : Prop where
  bcast_S_S40000x2 : S_.BroadcastsInDim S40000x2 (![] : Fin 0 → Fin S40000x2.rank)
  reducesTo_S40000x2_S_d0_1 : S40000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S40000x2 .f32) (main_arg1 : IVec S640000 32) (main_arg2 : IVec S640000 32) (main_arg3 : FVec F S2x128 .f32) (main_arg4 : FVec F S128 .f32) (main_arg5 : FVec F S128x128 .f32) (main_arg6 : FVec F S128 .f32) : IVec S_ 1 :=
  let main_v0 : FVec F S40000x2 .f32 := Host.absf main_arg0
  let main_cst : FVec F S_ .f32 := constant S_ .f32 0x7F800000#32
  let main_v1 : FVec F S40000x2 .f32 := broadcastInDim S40000x2 ![] bcast_S_S40000x2 main_cst
  let main_v2 : IVec S40000x2 1 := cmpf .olt main_v0 main_v1
  let main_c : IVec S_ 1 := constantI S_ 1 1#1
  let main_v3 : IVec S_ 1 := (fun x v => Host.reduce IntOp.andi x v reducesTo_S40000x2_S_d0_1 h_S_) main_v2 main_c
  let main_v4 : FVec F S2x128 .f32 := Host.absf main_arg3
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S40000x2 : Shape := ⟨2, ![40000, 2]⟩
abbrev S640000 : Shape := ⟨1, ![640000]⟩
abbrev S2x128 : Shape := ⟨2, ![2, 128]⟩
abbrev S128 : Shape := ⟨1, ![128]⟩
abbrev S128x128 : Shape := ⟨2, ![128, 128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x2 : Shape := ⟨2, ![640000, 2]⟩
abbrev S1x128 : Shape := ⟨2, ![1, 128]⟩
abbrev S40000x128 : Shape := ⟨2, ![40000, 128]⟩
abbrev S4000x2 : Shape := ⟨2, ![4000, 2]⟩
abbrev S4000x1 : Shape := ⟨2, ![4000, 1]⟩
abbrev S4000x128 : Shape := ⟨2, ![4000, 128]⟩
abbrev S640000x128 : Shape := ⟨2, ![640000, 128]⟩
abbrev S4000 : Shape := ⟨1, ![4000]⟩
abbrev S5120x128 : Shape := ⟨2, ![5120, 128]⟩
abbrev S5120 : Shape := ⟨1, ![5120]⟩

abbrev nBuf : Space → Nat
  | .hbm => 81
  | .vmem => 24
  | .smem => 0
  | _ => 0

abbrev bufTy : (tb : Table) → Fin (tcTables nBuf tb) → BufTy
  | .hbm, ⟨0, _⟩ => ⟨S40000x2, .f32⟩
  | .hbm, ⟨1, _⟩ => ⟨S640000, .i32⟩
  | .hbm, ⟨2, _⟩ => ⟨S640000, .i32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S40000, .f32⟩
  | .hbm, ⟨11, _⟩ => ⟨S640000x1, .i32⟩
  | .hbm, ⟨12, _⟩ => ⟨S40000, .f32⟩
  | .hbm, ⟨13, _⟩ => ⟨S_, .f32⟩
  | .hbm, ⟨14, _⟩ => ⟨S_, .f32⟩
  | .hbm, ⟨15, _⟩ => ⟨S40000, .f32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S640000x1, .i32⟩
  | .hbm, ⟨20, _⟩ => ⟨S40000, .f32⟩
  | .hbm, ⟨21, _⟩ => ⟨S_, .f32⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S40000, .f32⟩
  | .hbm, ⟨26, _⟩ => ⟨S40000x1, .f32⟩
  | .hbm, ⟨27, _⟩ => ⟨S40000x2, .f32⟩
  | .hbm, ⟨28, _⟩ => ⟨S40000x2, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x2, .f32⟩
  | .hbm, ⟨38, _⟩ => ⟨S_, .f32⟩
  | .hbm, ⟨39, _⟩ => ⟨S40000x2, .f32⟩
  | .hbm, ⟨40, _⟩ => ⟨S640000x1, .i32⟩
  | .hbm, ⟨41, _⟩ => ⟨S40000x2, .f32⟩
  | .hbm, ⟨42, _⟩ => ⟨S40000x1, .f32⟩
  | .hbm, ⟨43, _⟩ => ⟨S40000x1, .f32⟩
  | .hbm, ⟨44, _⟩ => ⟨S1x128, .f32⟩
  | .hbm, ⟨45, _⟩ => ⟨S40000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S40000x128, .f32⟩
  | .hbm, ⟨57, _⟩ => ⟨S640000x1, .i32⟩
  | .hbm, ⟨58, _⟩ => ⟨S40000x128, .f32⟩
  | .hbm, ⟨59, _⟩ => ⟨S40000x1, .f32⟩
  | .hbm, ⟨60, _⟩ => ⟨S1x128, .f32⟩
  | .hbm, ⟨61, _⟩ => ⟨S40000x128, .bf16⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .bf16⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .bf16⟩
  | .hbm, ⟨80, _⟩ => ⟨S640000, .f32⟩
  | .local _ .vmem, ⟨0, _⟩ => ⟨S4000x2, .f32⟩
  | .local _ .vmem, ⟨1, _⟩ => ⟨S4000x2, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S2x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S1x128, .f32⟩
  | .local _ .vmem, ⟨16, _⟩ => ⟨S4000x128, .bf16⟩
  | .local _ .vmem, ⟨17, _⟩ => ⟨S4000x128, .bf16⟩
  | .local _ .vmem, ⟨18, _⟩ => ⟨S5120x128, .bf16⟩
  | .local _ .vmem, ⟨19, _⟩ => ⟨S5120x128, .bf16⟩
  | .local _ .vmem, ⟨20, _⟩ => ⟨S5120x128, .bf16⟩
  | .local _ .vmem, ⟨21, _⟩ => ⟨S5120x128, .bf16⟩
  | .local _ .vmem, ⟨22, _⟩ => ⟨S5120, .f32⟩
  | .local _ .vmem, ⟨23, _⟩ => ⟨S5120, .f32⟩
  | _, _ => ⟨S40000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S5120x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5120x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5120 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x2_0_1 : S40000x1.BroadcastsInDim S40000x2 (![0, 1] : Fin 2 → Fin S40000x2.rank)
  bcast_S_S40000x2 : S_.BroadcastsInDim S40000x2 (![] : Fin 0 → Fin S40000x2.rank)
  shapeCasts_S40000_S40000x1 : S40000.ShapeCasts S40000x1
  shapeCasts_S128_S1x128 : S128.ShapeCasts S1x128
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x2 : S4000x1.Broadcasts S4000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  bcast_S_S40000x128 : S_.BroadcastsInDim S40000x128 (![] : Fin 0 → Fin S40000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  reduces_S4000x128_S4000 : S4000x128.Reduces [1] S4000
  shapeCasts_S4000_S4000x1 : S4000.ShapeCasts S4000x1
  packedbf16_S4000x128_S4000x128_0_0 : (Rect.unit (s := S4000x128) ![0, 0] S4000x128.size inb_S4000x128_S4000x128_0_0).PackedRows (EltTy.packing .bf16)
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  reduces_S5120x128_S5120 : S5120x128.Reduces [1] S5120
  inb_S5120_S5120_0 : ∀ a, (![0] : Fin 1 → Nat) a + S5120.size a ≤ S5120.size a
  h_S5120 : 0 < S5120.numel
  scatter_S40000_S640000x1_S640000_n_0_0_1_wf : ScatterDims.WF S40000 S640000x1 S640000 [] [0] [0] 1
  gather_S40000x2_S640000x1_S640000x2_1_0_n_n_0_1_12_wf : GatherDims.WF S40000x2 S640000x1 S640000x2 [1] [0] [] [0] [] 1 ![1, 2]
  scatter_S40000x2_S640000x1_S640000x2_1_0_0_1_wf : ScatterDims.WF S40000x2 S640000x1 S640000x2 [1] [0] [0] 1
  dot_S4000x2_S2x128_S4000x128_1_0_0_1_n_n_wf : DotDims.WF S4000x2 S2x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S40000x2.size a
  hwx0_0 : ∀ i : grid0.Coords, EltTy.bits .f32 = 32 ∨ (Rect.block (s := S40000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S40000x1.size a
  hwx0_1 : ∀ i : grid0.Coords, EltTy.bits .f32 = 32 ∨ (Rect.block (s := S40000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S40000x1.size a
  hwx1_1 : ∀ i : grid1.Coords, EltTy.bits .f32 = 32 ∨ (Rect.block (s := S40000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S40000x128.size a
  hwx1_4 : ∀ i : grid1.Coords, EltTy.bits .bf16 = 32 ∨ (Rect.block (s := S40000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5120x128.size a ≤ S640000x128.size a
  hwx2_0 : ∀ i : grid2.Coords, EltTy.bits .bf16 = 32 ∨ (Rect.block (s := S640000x128) S5120x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x128.size a ≤ S640000x128.size a
  hwx2_1 : ∀ i : grid2.Coords, EltTy.bits .bf16 = 32 ∨ (Rect.block (s := S640000x128) S5120x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5120.size a ≤ S640000.size a
  hwx2_2 : ∀ i : grid2.Coords, EltTy.bits .f32 = 32 ∨ (Rect.block (s := S640000) S5120.size (cc2_transform_2 i) (hinb2_2 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x2_S640000x1_S640000x2_1_0_n_n_0_1_12 : GatherDims S40000x2 S640000x1 S640000x2 where
  offsetDims := [1]
  collapsedSliceDims := [0]
  operandBatchingDims := []
  startIndicesBatchingDims := []
  startIndexMap := [0]
  indexVectorDim := 1
  sliceSizes := ![1, 2]
  wf := gather_S40000x2_S640000x1_S640000x2_1_0_n_n_0_1_12_wf
def scatter_S40000x2_S640000x1_S640000x2_1_0_0_1 : ScatterDims S40000x2 S640000x1 S640000x2 where
  updateWindowDims := [1]
  insertedWindowDims := [0]
  scatterDimsToOperandDims := [0]
  indexVectorDim := 1
  wf := scatter_S40000x2_S640000x1_S640000x2_1_0_0_1_wf
def dot_S4000x2_S2x128_S4000x128_1_0_0_1_n_n : DotDims S4000x2 S2x128 S4000x128 where
  lhsContracting := [1]
  rhsContracting := [0]
  lhsNonContracting := [0]
  rhsNonContracting := [1]
  lhsBatch := []
  rhsBatch := []
  wf := dot_S4000x2_S2x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5120x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5120x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5120.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S40000x2 : Shape := ⟨2, ![40000, 2]⟩
abbrev S640000 : Shape := ⟨1, ![640000]⟩
abbrev S2x128 : Shape := ⟨2, ![2, 128]⟩
abbrev S128 : Shape := ⟨1, ![128]⟩
abbrev S128x128 : Shape := ⟨2, ![128, 128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x2 : Shape := ⟨2, ![640000, 2]⟩
abbrev S40000x128 : Shape := ⟨2, ![40000, 128]⟩
abbrev S1x128 : Shape := ⟨2, ![1, 128]⟩
abbrev S640000x128 : Shape := ⟨2, ![640000, 128]⟩

abbrev nBuf : Space → Nat
  | .hbm => 130
  | .vmem => 0
  | .smem => 0
  | _ => 0

abbrev hbmTy0_0 (i : Nat) : BufTy := match i % 128 with
  | 0 => ⟨S40000x2, .f32⟩
  | 1 => ⟨S640000, .i32⟩
  | 2 => ⟨S640000, .i32⟩
  | 3 => ⟨S2x128, .f32⟩
  | 4 => ⟨S128, .f32⟩
  | 5 => ⟨S128x128, .f32⟩
  | 6 => ⟨S128, .f32⟩
  | 7 => ⟨S_, .f32⟩
  | 8 => ⟨S640000, .f32⟩
  | 9 => ⟨S_, .f32⟩
  | 10 => ⟨S40000, .f32⟩
  | 11 => ⟨S640000x1, .i32⟩
  | 12 => ⟨S40000, .f32⟩
  | 13 => ⟨S_, .f32⟩
  | 14 => ⟨S_, .f32⟩
  | 15 => ⟨S40000, .f32⟩
  | 16 => ⟨S40000, .f32⟩
  | 17 => ⟨S_, .f32⟩
  | 18 => ⟨S40000, .f32⟩
  | 19 => ⟨S640000x1, .i32⟩
  | 20 => ⟨S40000, .f32⟩
  | 21 => ⟨S_, .f32⟩
  | 22 => ⟨S_, .f32⟩
  | 23 => ⟨S40000, .f32⟩
  | 24 => ⟨S40000, .f32⟩
  | 25 => ⟨S40000, .f32⟩
  | 26 => ⟨S40000x1, .f32⟩
  | 27 => ⟨S40000x2, .f32⟩
  | 28 => ⟨S40000x2, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x2, .f32⟩
  | 38 => ⟨S_, .f32⟩
  | 39 => ⟨S40000x2, .f32⟩
  | 40 => ⟨S640000x1, .i32⟩
  | 41 => ⟨S40000x2, .f32⟩
  | 42 => ⟨S40000, .f32⟩
  | 43 => ⟨S40000x1, .f32⟩
  | 44 => ⟨S40000x2, .f32⟩
  | 45 => ⟨S40000x2, .f32⟩
  | 46 => ⟨S40000x128, .f32⟩
  | 47 => ⟨S1x128, .f32⟩
  | 48 => ⟨S40000x128, .f32⟩
  | 49 => ⟨S40000x128, .f32⟩
  | 50 => ⟨S_, .f32⟩
  | 51 => ⟨S640000, .f32⟩
  | 52 => ⟨S_, .f32⟩
  | 53 => ⟨S40000, .f32⟩
  | 54 => ⟨S640000x1, .i32⟩
  | 55 => ⟨S40000, .f32⟩
  | 56 => ⟨S_, .f32⟩
  | 57 => ⟨S_, .f32⟩
  | 58 => ⟨S40000, .f32⟩
  | 59 => ⟨S40000, .f32⟩
  | 60 => ⟨S_, .f32⟩
  | 61 => ⟨S40000, .f32⟩
  | 62 => ⟨S640000x1, .i32⟩
  | 63 => ⟨S40000, .f32⟩
  | 64 => ⟨S_, .f32⟩
  | 65 => ⟨S_, .f32⟩
  | 66 => ⟨S40000, .f32⟩
  | 67 => ⟨S40000, .f32⟩
  | 68 => ⟨S40000, .f32⟩
  | 69 => ⟨S40000x1, .f32⟩
  | 70 => ⟨S40000x128, .f32⟩
  | 71 => ⟨S40000x128, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000x128, .f32⟩
  | 81 => ⟨S_, .f32⟩
  | 82 => ⟨S40000x128, .f32⟩
  | 83 => ⟨S640000x1, .i32⟩
  | 84 => ⟨S40000x128, .f32⟩
  | 85 => ⟨S40000, .f32⟩
  | 86 => ⟨S40000x1, .f32⟩
  | 87 => ⟨S40000x128, .f32⟩
  | 88 => ⟨S40000x128, .f32⟩
  | 89 => ⟨S40000x128, .f32⟩
  | 90 => ⟨S1x128, .f32⟩
  | 91 => ⟨S40000x128, .f32⟩
  | 92 => ⟨S40000x128, .f32⟩
  | 93 => ⟨S_, .i32⟩
  | 94 => ⟨S640000, .i32⟩
  | 95 => ⟨S640000, .i1⟩
  | 96 => ⟨S_, .i32⟩
  | 97 => ⟨S640000, .i32⟩
  | 98 => ⟨S640000, .i32⟩
  | 99 => ⟨S640000, .i32⟩
  | 100 => ⟨S640000x1, .i32⟩
  | 101 => ⟨S640000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x128, .f32⟩
  | 112 => ⟨S_, .f32⟩
  | 113 => ⟨S640000, .f32⟩
  | 114 => ⟨S640000x128, .f32⟩
  | 115 => ⟨S_, .f32⟩
  | 116 => ⟨S640000, .f32⟩
  | 117 => ⟨S640000, .f32⟩
  | 118 => ⟨S_, .f32⟩
  | 119 => ⟨S640000, .f32⟩
  | 120 => ⟨S640000, .f32⟩
  | 121 => ⟨S640000x128, .f32⟩
  | 122 => ⟨S_, .f32⟩
  | 123 => ⟨S640000, .f32⟩
  | 124 => ⟨S640000, .f32⟩
  | 125 => ⟨S_, .f32⟩
  | 126 => ⟨S640000, .f32⟩
  | 127 => ⟨S640000, .f32⟩
  | _ => ⟨S40000x2, .f32⟩

abbrev hbmTy0_1 (i : Nat) : BufTy := match i % 128 with
  | 0 => ⟨S640000, .f32⟩
  | 1 => ⟨S640000, .f32⟩
  | _ => ⟨S40000x2, .f32⟩

abbrev hbmTy (i : Nat) : BufTy := match i / 128 with
  | 0 => hbmTy0_0 i
  | 1 => hbmTy0_1 i
  | _ => ⟨S40000x2, .f32⟩

abbrev bufTy : (tb : Table) → Fin (tcTables nBuf tb) → BufTy
  | .hbm, ⟨i, _⟩ => hbmTy i
  | _, _ => ⟨S40000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_call2_v0 : Ref sig .tc := ⟨.hbm, 57, rfl⟩
abbrev main_call2_v1 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_call3_v0 : Ref sig .tc := ⟨.hbm, 65, rfl⟩
abbrev main_call3_v1 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_call4_v0 : Ref sig .tc := ⟨.hbm, 114, rfl⟩
abbrev main_call4_cst : Ref sig .tc := ⟨.hbm, 115, rfl⟩
abbrev main_call4_v1 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_v80 : Ref sig .tc := ⟨.hbm, 120, rfl⟩
abbrev main_call5_v0 : Ref sig .tc := ⟨.hbm, 121, rfl⟩
abbrev main_call5_cst : Ref sig .tc := ⟨.hbm, 122, rfl⟩
abbrev main_call5_v1 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x2_0_1 : S40000x1.BroadcastsInDim S40000x2 (![0, 1] : Fin 2 → Fin S40000x2.rank)
  bcast_S_S40000x2 : S_.BroadcastsInDim S40000x2 (![] : Fin 0 → Fin S40000x2.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  reducesTo_S640000x128_S640000_d1 : S640000x128.ReducesTo [1] S640000
  h_S_ : 0 < S_.numel
  scatter_S40000_S640000x1_S640000_n_0_0_1_wf : ScatterDims.WF S40000 S640000x1 S640000 [] [0] [0] 1
  gather_S40000x2_S640000x1_S640000x2_1_0_n_n_0_1_12_wf : GatherDims.WF S40000x2 S640000x1 S640000x2 [1] [0] [] [0] [] 1 ![1, 2]
  scatter_S40000x2_S640000x1_S640000x2_1_0_0_1_wf : ScatterDims.WF S40000x2 S640000x1 S640000x2 [1] [0] [0] 1
  dot_S40000x2_S2x128_S40000x128_1_0_0_1_n_n_wf : DotDims.WF S40000x2 S2x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x2_S640000x1_S640000x2_1_0_n_n_0_1_12 : GatherDims S40000x2 S640000x1 S640000x2 where
  offsetDims := [1]
  collapsedSliceDims := [0]
  operandBatchingDims := []
  startIndicesBatchingDims := []
  startIndexMap := [0]
  indexVectorDim := 1
  sliceSizes := ![1, 2]
  wf := gather_S40000x2_S640000x1_S640000x2_1_0_n_n_0_1_12_wf
def scatter_S40000x2_S640000x1_S640000x2_1_0_0_1 : ScatterDims S40000x2 S640000x1 S640000x2 where
  updateWindowDims := [1]
  insertedWindowDims := [0]
  scatterDimsToOperandDims := [0]
  indexVectorDim := 1
  wf := scatter_S40000x2_S640000x1_S640000x2_1_0_0_1_wf
def dot_S40000x2_S2x128_S40000x128_1_0_0_1_n_n : DotDims S40000x2 S2x128 S40000x128 where
  lhsContracting := [1]
  rhsContracting := [0]
  lhsNonContracting := [0]
  rhsNonContracting := [1]
  lhsBatch := []
  rhsBatch := []
  wf := dot_S40000x2_S2x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KernelRun.lean ====
/-
  The idealized kernel's run with its result named. Every weakly fair execution of @main ends, nothing faulting, with
  the result array `main_v54` holding what the last pallas_call's write-backs leave in it — the contents at the last
  segment boundary — and with the seven argument arrays as launched. The three pallas_calls and the host operations
  between them are run as ten segments from the launch memory; the last boundary's contents are read against the final
  state at the result buffer and at each argument.
-/
import proofs.«164421_j43851616092221_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run of @main with the result array at the last boundary's contents and the arguments unchanged. -/
theorem run_result : θ_run defs (onTc (τ := τ) (main (F := F))) ⟨m, fun _ => 0, ρ⟩ (fun r => ∀ c : Dev nD,
      r.2.mem ((c.tc : Thread nD τ).loc main_v54) = W10 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v54 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.RunValue

end
-- ==== Proof.HostReads.lean ====
/-
  What the host operations around the three pallas_calls leave in the buffers the calls read, as functions of the
  seven argument arrays. The kernel's host side is, operation for operation, the reference's own beginning: the two
  degree vectors (a scatter-add of ones along the sources, resp. the destinations, clipped below at one), the
  positions scaled by the inverse square root of the out-degree, the neighbour sum (gather along the sources,
  scatter-add along the destinations) — so each buffer is named by the reference's stage of the same number. Between
  the calls: the neighbour sum of the first call's result, and the gathers of the second call's result along the
  sources and along the destinations. An argument array, and a degree vector once computed, is written by no later
  operation and by no call, so it is the same at every later boundary.
-/
import proofs.«164421_j43851616092221_2_alg».proof.Proof.KernelRun
import proofs.«164421_j43851616092221_2_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostReads

open Cert.KernelIdeal Cert.KernelIdeal.Gen

/-- A stretch of host operations leaves a buffer none of them writes as it was. -/
macro "untouched " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## A called function's values: stored at the buffer's own type, read back at the value's type

The operations of an inlined function move contents between a value's type and its buffer's type; the two types are
equal, so each move is the identity (stated through heterogeneous equality, so that no buffer's type has to be computed). -/

/-- Contents moved to a buffer's own type and back are the contents. -/
theorem ofBuf_toBuf {T : BufTy} (x : TRef sig T) (z : T.Contents (Elt Ideal)) : x.ofBuf (x.toBuf z) = z :=
  eq_of_heq ((cast_heq _ _).trans (cast_heq _ _))
/-- Contents read at the value's type are the buffer's contents. -/
theorem ofBuf_eq {T : BufTy} (x : TRef sig T) (v : x.ref.ty.Contents (Elt Ideal)) (w : T.Contents (Elt Ideal)) (h : HEq v w) :
    x.ofBuf v = w := eq_of_heq ((cast_heq _ _).trans h)
/-- Contents stored at the buffer's type are the value. -/
theorem toBuf_eq {T : BufTy} (x : TRef sig T) (v : T.Contents (Elt Ideal)) (w : x.ref.ty.Contents (Elt Ideal)) (h : HEq v w) :
    x.toBuf v = w := eq_of_heq ((cast_heq _ _).trans h)

/-! ## Buffers no later operation writes -/

theorem W1_arg0 : W1 m ρ c (Proc.devRef .tc main_arg0) = W0 m ρ c (Proc.devRef .tc main_arg0) := by
  untouched hostOps0
theorem W2_arg0 : W2 m ρ c (Proc.devRef .tc main_arg0) = W1 m ρ c (Proc.devRef .tc main_arg0) := by
  untouched hostOps0_1
theorem W3_arg0 : W3 m ρ c (Proc.devRef .tc main_arg0) = W2 m ρ c (Proc.devRef .tc main_arg0) := by
  untouched hostOps0_2
theorem W4_arg0 : W4 m ρ c (Proc.devRef .tc main_arg0) = W3 m ρ c (Proc.devRef .tc main_arg0) := by
  untouched hostOps0_3
theorem W1_arg1 : W1 m ρ c (Proc.devRef .tc main_arg1) = W0 m ρ c (Proc.devRef .tc main_arg1) := by
  untouched hostOps0
theorem W2_arg1 : W2 m ρ c (Proc.devRef .tc main_arg1) = W1 m ρ c (Proc.devRef .tc main_arg1) := by
  untouched hostOps0_1
theorem W3_arg1 : W3 m ρ c (Proc.devRef .tc main_arg1) = W2 m ρ c (Proc.devRef .tc main_arg1) := by
  untouched hostOps0_2
theorem W4_arg1 : W4 m ρ c (Proc.devRef .tc main_arg1) = W3 m ρ c (Proc.devRef .tc main_arg1) := by
  untouched hostOps0_3
theorem W5_arg1 : W5 m ρ c (Proc.devRef .tc main_arg1) = W4 m ρ c (Proc.devRef .tc main_arg1) := by
  untouched hostOps0_4
theorem W6_arg1 : W6 m ρ c (Proc.devRef .tc main_arg1) = W5 m ρ c (Proc.devRef .tc main_arg1) :=
  W6_of_ne m ρ c main_arg1 (by decide)
theorem W7_arg1 : W7 m ρ c (Proc.devRef .tc main_arg1) = W6 m ρ c (Proc.devRef .tc main_arg1) := by
  untouched hostOps1
theorem W8_arg1 : W8 m ρ c (Proc.devRef .tc main_arg1) = W7 m ρ c (Proc.devRef .tc main_arg1) :=
  W8_of_ne m ρ c main_arg1 (by decide)
theorem W1_arg2 : W1 m ρ c (Proc.devRef .tc main_arg2) = W0 m ρ c (Proc.devRef .tc main_arg2) := by
  untouched hostOps0
theorem W2_arg2 : W2 m ρ c (Proc.devRef .tc main_arg2) = W1 m ρ c (Proc.devRef .tc main_arg2) := by
  untouched hostOps0_1
theorem W3_arg2 : W3 m ρ c (Proc.devRef .tc main_arg2) = W2 m ρ c (Proc.devRef .tc main_arg2) := by
  untouched hostOps0_2
theorem W4_arg2 : W4 m ρ c (Proc.devRef .tc main_arg2) = W3 m ρ c (Proc.devRef .tc main_arg2) := by
  untouched hostOps0_3
theorem W5_arg2 : W5 m ρ c (Proc.devRef .tc main_arg2) = W4 m ρ c (Proc.devRef .tc main_arg2) := by
  untouched hostOps0_4
theorem W6_arg2 : W6 m ρ c (Proc.devRef .tc main_arg2) = W5 m ρ c (Proc.devRef .tc main_arg2) :=
  W6_of_ne m ρ c main_arg2 (by decide)
theorem W7_arg2 : W7 m ρ c (Proc.devRef .tc main_arg2) = W6 m ρ c (Proc.devRef .tc main_arg2) := by
  untouched hostOps1
theorem W8_arg2 : W8 m ρ c (Proc.devRef .tc main_arg2) = W7 m ρ c (Proc.devRef .tc main_arg2) :=
  W8_of_ne m ρ c main_arg2 (by decide)
theorem W1_arg3 : W1 m ρ c (Proc.devRef .tc main_arg3) = W0 m ρ c (Proc.devRef .tc main_arg3) := by
  untouched hostOps0
theorem W2_arg3 : W2 m ρ c (Proc.devRef .tc main_arg3) = W1 m ρ c (Proc.devRef .tc main_arg3) := by
  untouched hostOps0_1
theorem W3_arg3 : W3 m ρ c (Proc.devRef .tc main_arg3) = W2 m ρ c (Proc.devRef .tc main_arg3) := by
  untouched hostOps0_2
theorem W4_arg3 : W4 m ρ c (Proc.devRef .tc main_arg3) = W3 m ρ c (Proc.devRef .tc main_arg3) := by
  untouched hostOps0_3
theorem W5_arg3 : W5 m ρ c (Proc.devRef .tc main_arg3) = W4 m ρ c (Proc.devRef .tc main_arg3) := by
  untouched hostOps0_4
theorem W1_arg4 : W1 m ρ c (Proc.devRef .tc main_arg4) = W0 m ρ c (Proc.devRef .tc main_arg4) := by
  untouched hostOps0
theorem W2_arg4 : W2 m ρ c (Proc.devRef .tc main_arg4) = W1 m ρ c (Proc.devRef .tc main_arg4) := by
  untouched hostOps0_1
theorem W3_arg4 : W3 m ρ c (Proc.devRef .tc main_arg4) = W2 m ρ c (Proc.devRef .tc main_arg4) := by
  untouched hostOps0_2
theorem W4_arg4 : W4 m ρ c (Proc.devRef .tc main_arg4) = W3 m ρ c (Proc.devRef .tc main_arg4) := by
  untouched hostOps0_3
theorem W1_arg5 : W1 m ρ c (Proc.devRef .tc main_arg5) = W0 m ρ c (Proc.devRef .tc main_arg5) := by
  untouched hostOps0
theorem W2_arg5 : W2 m ρ c (Proc.devRef .tc main_arg5) = W1 m ρ c (Proc.devRef .tc main_arg5) := by
  untouched hostOps0_1
theorem W3_arg5 : W3 m ρ c (Proc.devRef .tc main_arg5) = W2 m ρ c (Proc.devRef .tc main_arg5) := by
  untouched hostOps0_2
theorem W4_arg5 : W4 m ρ c (Proc.devRef .tc main_arg5) = W3 m ρ c (Proc.devRef .tc main_arg5) := by
  untouched hostOps0_3
theorem W5_arg5 : W5 m ρ c (Proc.devRef .tc main_arg5) = W4 m ρ c (Proc.devRef .tc main_arg5) := by
  untouched hostOps0_4
theorem W6_arg5 : W6 m ρ c (Proc.devRef .tc main_arg5) = W5 m ρ c (Proc.devRef .tc main_arg5) :=
  W6_of_ne m ρ c main_arg5 (by decide)
theorem W7_arg5 : W7 m ρ c (Proc.devRef .tc main_arg5) = W6 m ρ c (Proc.devRef .tc main_arg5) := by
  untouched hostOps1
theorem W1_arg6 : W1 m ρ c (Proc.devRef .tc main_arg6) = W0 m ρ c (Proc.devRef .tc main_arg6) := by
  untouched hostOps0
theorem W2_arg6 : W2 m ρ c (Proc.devRef .tc main_arg6) = W1 m ρ c (Proc.devRef .tc main_arg6) := by
  untouched hostOps0_1
theorem W3_arg6 : W3 m ρ c (Proc.devRef .tc main_arg6) = W2 m ρ c (Proc.devRef .tc main_arg6) := by
  untouched hostOps0_2
theorem W4_arg6 : W4 m ρ c (Proc.devRef .tc main_arg6) = W3 m ρ c (Proc.devRef .tc main_arg6) := by
  untouched hostOps0_3
theorem W5_arg6 : W5 m ρ c (Proc.devRef .tc main_arg6) = W4 m ρ c (Proc.devRef .tc main_arg6) := by
  untouched hostOps0_4
theorem W6_arg6 : W6 m ρ c (Proc.devRef .tc main_arg6) = W5 m ρ c (Proc.devRef .tc main_arg6) :=
  W6_of_ne m ρ c main_arg6 (by decide)
theorem at4_arg0 : W4 m ρ c (Proc.devRef .tc main_arg0) = m ((c : Thread nD τ).loc main_arg0) :=
  (W4_arg0 m ρ c).trans ((W3_arg0 m ρ c).trans ((W2_arg0 m ρ c).trans ((W1_arg0 m ρ c).trans rfl)))
theorem at4_arg1 : W4 m ρ c (Proc.devRef .tc main_arg1) = m ((c : Thread nD τ).loc main_arg1) :=
  (W4_arg1 m ρ c).trans ((W3_arg1 m ρ c).trans ((W2_arg1 m ρ c).trans ((W1_arg1 m ρ c).trans rfl)))
theorem at6_arg1 : W6 m ρ c (Proc.devRef .tc main_arg1) = m ((c : Thread nD τ).loc main_arg1) :=
  (W6_arg1 m ρ c).trans ((W5_arg1 m ρ c).trans ((W4_arg1 m ρ c).trans ((W3_arg1 m ρ c).trans ((W2_arg1 m ρ c).trans ((W1_arg1 m ρ c).trans rfl)))))
theorem at8_arg1 : W8 m ρ c (Proc.devRef .tc main_arg1) = m ((c : Thread nD τ).loc main_arg1) :=
  (W8_arg1 m ρ c).trans ((W7_arg1 m ρ c).trans ((W6_arg1 m ρ c).trans ((W5_arg1 m ρ c).trans ((W4_arg1 m ρ c).trans ((W3_arg1 m ρ c).trans ((W2_arg1 m ρ c).trans ((W1_arg1 m ρ c).trans rfl)))))))
theorem at2_arg2 : W2 m ρ c (Proc.devRef .tc main_arg2) = m ((c : Thread nD τ).loc main_arg2) :=
  (W2_arg2 m ρ c).trans ((W1_arg2 m ρ c).trans rfl)
theorem at4_arg2 : W4 m ρ c (Proc.devRef .tc main_arg2) = m ((c : Thread nD τ).loc main_arg2) :=
  (W4_arg2 m ρ c).trans ((W3_arg2 m ρ c).trans ((W2_arg2 m ρ c).trans ((W1_arg2 m ρ c).trans rfl)))
theorem at6_arg2 : W6 m ρ c (Proc.devRef .tc main_arg2) = m ((c : Thread nD τ).loc main_arg2) :=
  (W6_arg2 m ρ c).trans ((W5_arg2 m ρ c).trans ((W4_arg2 m ρ c).trans ((W3_arg2 m ρ c).trans ((W2_arg2 m ρ c).trans ((W1_arg2 m ρ c).trans rfl)))))
theorem at8_arg2 : W8 m ρ c (Proc.devRef .tc main_arg2) = m ((c : Thread nD τ).loc main_arg2) :=
  (W8_arg2 m ρ c).trans ((W7_arg2 m ρ c).trans ((W6_arg2 m ρ c).trans ((W5_arg2 m ρ c).trans ((W4_arg2 m ρ c).trans ((W3_arg2 m ρ c).trans ((W2_arg2 m ρ c).trans ((W1_arg2 m ρ c).trans rfl)))))))
theorem at5_arg3 : W5 m ρ c (Proc.devRef .tc main_arg3) = m ((c : Thread nD τ).loc main_arg3) :=
  (W5_arg3 m ρ c).trans ((W4_arg3 m ρ c).trans ((W3_arg3 m ρ c).trans ((W2_arg3 m ρ c).trans ((W1_arg3 m ρ c).trans rfl))))
theorem at4_arg4 : W4 m ρ c (Proc.devRef .tc main_arg4) = m ((c : Thread nD τ).loc main_arg4) :=
  (W4_arg4 m ρ c).trans ((W3_arg4 m ρ c).trans ((W2_arg4 m ρ c).trans ((W1_arg4 m ρ c).trans rfl)))
theorem at7_arg5 : W7 m ρ c (Proc.devRef .tc main_arg5) = m ((c : Thread nD τ).loc main_arg5) :=
  (W7_arg5 m ρ c).trans ((W6_arg5 m ρ c).trans ((W5_arg5 m ρ c).trans ((W4_arg5 m ρ c).trans ((W3_arg5 m ρ c).trans ((W2_arg5 m ρ c).trans ((W1_arg5 m ρ c).trans rfl))))))
theorem at6_arg6 : W6 m ρ c (Proc.devRef .tc main_arg6) = m ((c : Thread nD τ).loc main_arg6) :=
  (W6_arg6 m ρ c).trans ((W5_arg6 m ρ c).trans ((W4_arg6 m ρ c).trans ((W3_arg6 m ρ c).trans ((W2_arg6 m ρ c).trans ((W1_arg6 m ρ c).trans rfl)))))
theorem W5_v8 : W5 m ρ c (Proc.devRef .tc main_v8) = W4 m ρ c (Proc.devRef .tc main_v8) := by
  untouched hostOps0_4
theorem W6_v8 : W6 m ρ c (Proc.devRef .tc main_v8) = W5 m ρ c (Proc.devRef .tc main_v8) :=
  W6_of_ne m ρ c main_v8 (by decide)

theorem W2_v0 : W2 m ρ c (Proc.devRef .tc main_v0) = W1 m ρ c (Proc.devRef .tc main_v0) := by
  untouched hostOps0_1
theorem W3_v4 : W3 m ρ c (Proc.devRef .tc main_v4) = W2 m ρ c (Proc.devRef .tc main_v4) := by
  untouched hostOps0_2
theorem W4_v4 : W4 m ρ c (Proc.devRef .tc main_v4) = W3 m ρ c (Proc.devRef .tc main_v4) := by
  untouched hostOps0_3

/-! ## The degree vectors -/

theorem W1_v0 : W1 m ρ c (Proc.devRef .tc main_v0) = Cert.ReferenceIdeal.Read.val_main_v0 (F := Ideal) := by
  show StableHlo.after hostOps0 (W0 m ρ c) (Proc.devRef .tc main_v0) = _
  after_results
  rfl
theorem W1_cst_1 : W1 m ρ c (Proc.devRef .tc main_cst_1) = Cert.ReferenceIdeal.Read.val_main_cst_1 (F := Ideal) := by
  show StableHlo.after hostOps0 (W0 m ρ c) (Proc.devRef .tc main_cst_1) = _
  after_results
  rfl
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
/-- The out-degrees, clipped below at one. -/
theorem W2_v4 : W2 m ρ c (Proc.devRef .tc main_v4) = Cert.ReferenceIdeal.Read.val_main_v4 (F := Ideal) (m ((c : Thread nD τ).loc main_arg1)) := by
  show StableHlo.after hostOps0_1 (W1 m ρ c) (Proc.devRef .tc main_v4) = _
  have h1 := W1_cst_1 m ρ c
  have h3 := W1_v3 m ρ c
  generalize W1 m ρ c = Wp at h1 h3 ⊢
  after_results
  rw [ofBuf_toBuf, ofBuf_toBuf, h1, h3]
  refine toBuf_eq _ _ _ (heq_of_eq ?_)
  unfold Cert.ReferenceIdeal.Read.val_main_v4 Cert.ReferenceIdeal.Read.val_main_call0_v1 Cert.ReferenceIdeal.Read.val_main_call0_v0
  exact congrArg₂ maximumf (congrArg _ (congrArg id (ofBuf_eq _ _ _ HEq.rfl))) (ofBuf_eq _ _ _ HEq.rfl)
theorem at4_v4 : W4 m ρ c (Proc.devRef .tc main_v4) = Cert.ReferenceIdeal.Read.val_main_v4 (F := Ideal) (m ((c : Thread nD τ).loc main_arg1)) :=
  (W4_v4 m ρ c).trans ((W3_v4 m ρ c).trans (W2_v4 m ρ c))
theorem at2_v0 : W2 m ρ c (Proc.devRef .tc main_v0) = Cert.ReferenceIdeal.Read.val_main_v0 (F := Ideal) :=
  (W2_v0 m ρ c).trans (W1_v0 m ρ c)
theorem W3_cst_3 : W3 m ρ c (Proc.devRef .tc main_cst_3) = Cert.ReferenceIdeal.Read.val_main_cst_3 (F := Ideal) := by
  show StableHlo.after hostOps0_2 (W2 m ρ c) (Proc.devRef .tc main_cst_3) = _

  generalize W2 m ρ c = Wp at  ⊢
  after_results
  rfl
theorem W3_v7 : W3 m ρ c (Proc.devRef .tc main_v7) = Cert.ReferenceIdeal.Read.val_main_v7 (F := Ideal) (m ((c : Thread nD τ).loc main_arg2)) := by
  show StableHlo.after hostOps0_2 (W2 m ρ c) (Proc.devRef .tc main_v7) = _
  have h0 := at2_arg2 m ρ c
  have h1 := at2_v0 m ρ c
  generalize W2 m ρ c = Wp at h0 h1 ⊢
  after_results
  rw [h0, h1]
  rfl
/-- The in-degrees, clipped below at one. -/
theorem W4_v8 : W4 m ρ c (Proc.devRef .tc main_v8) = Cert.ReferenceIdeal.Read.val_main_v8 (F := Ideal) (m ((c : Thread nD τ).loc main_arg2)) := by
  show StableHlo.after hostOps0_3 (W3 m ρ c) (Proc.devRef .tc main_v8) = _
  have h1 := W3_cst_3 m ρ c
  have h3 := W3_v7 m ρ c
  generalize W3 m ρ c = Wp at h1 h3 ⊢
  after_results
  rw [ofBuf_toBuf, ofBuf_toBuf, h1, h3]
  refine toBuf_eq _ _ _ (heq_of_eq ?_)
  unfold Cert.ReferenceIdeal.Read.val_main_v8 Cert.ReferenceIdeal.Read.val_main_call1_v1 Cert.ReferenceIdeal.Read.val_main_call1_v0
  exact congrArg₂ maximumf (congrArg _ (congrArg id (ofBuf_eq _ _ _ HEq.rfl))) (ofBuf_eq _ _ _ HEq.rfl)
theorem at6_v8 : W6 m ρ c (Proc.devRef .tc main_v8) = Cert.ReferenceIdeal.Read.val_main_v8 (F := Ideal) (m ((c : Thread nD τ).loc main_arg2)) :=
  (W6_v8 m ρ c).trans ((W5_v8 m ρ c).trans (W4_v8 m ρ c))

/-! ## What the first call reads -/

set_option maxHeartbeats 1600000 in
/-- The neighbour sum of the positions scaled by the inverse square root of the out-degree. -/
theorem W5_v22 : W5 m ρ c (Proc.devRef .tc main_v22) = Cert.ReferenceIdeal.Read.val_main_v22 (F := Ideal) (m ((c : Thread nD τ).loc main_arg0)) (m ((c : Thread nD τ).loc main_arg1)) (m ((c : Thread nD τ).loc main_arg2)) := by
  show StableHlo.after hostOps0_4 (W4 m ρ c) (Proc.devRef .tc main_v22) = _
  have h0 := at4_arg0 m ρ c
  have h1 := at4_arg1 m ρ c
  have h2 := at4_arg2 m ρ c
  have h3 := at4_v4 m ρ c
  generalize W4 m ρ c = Wp at h0 h1 h2 h3 ⊢
  after_results
  rw [h0, h1, h2, h3]
  rfl
/-- The in-degrees as a column. -/
theorem W5_v23 : W5 m ρ c (Proc.devRef .tc main_v23) = shapeCast S40000x1 (Cert.ReferenceIdeal.Read.val_main_v8 (F := Ideal) (m ((c : Thread nD τ).loc main_arg2))) shapeCasts_S40000_S40000x1 := by
  show StableHlo.after hostOps0_4 (W4 m ρ c) (Proc.devRef .tc main_v23) = _
  have h0 := W4_v8 m ρ c
  generalize W4 m ρ c = Wp at h0 ⊢
  after_results
  rw [h0]
  rfl
/-- The out-degrees as a column. -/
theorem W5_v24 : W5 m ρ c (Proc.devRef .tc main_v24) = shapeCast S40000x1 (Cert.ReferenceIdeal.Read.val_main_v4 (F := Ideal) (m ((c : Thread nD τ).loc main_arg1))) shapeCasts_S40000_S40000x1 := by
  show StableHlo.after hostOps0_4 (W4 m ρ c) (Proc.devRef .tc main_v24) = _
  have h0 := at4_v4 m ρ c
  generalize W4 m ρ c = Wp at h0 ⊢
  after_results
  rw [h0]
  rfl
/-- The first bias as a row. -/
theorem W5_v25 : W5 m ρ c (Proc.devRef .tc main_v25) = shapeCast S1x128 (m ((c : Thread nD τ).loc main_arg4)) shapeCasts_S128_S1x128 := by
  show StableHlo.after hostOps0_4 (W4 m ρ c) (Proc.devRef .tc main_v25) = _
  have h0 := at4_arg4 m ρ c
  generalize W4 m ρ c = Wp at h0 ⊢
  after_results
  rw [h0]
  rfl

/-! ## What the second call reads, from what the first call left in its result `main_v26` -/

set_option maxHeartbeats 1600000 in
/-- The neighbour sum of the first call's result: its rows gathered along the sources, added along the destinations. -/
theorem W7_v36 : W7 m ρ c (Proc.devRef .tc main_v36) = Host.scatterAdd (F := Ideal) (φ := .f32) Cert.ReferenceIdeal.scatter_S40000x128_S640000x1_S640000x128_1_0_0_1 (Cert.ReferenceIdeal.Read.val_main_v51 (F := Ideal)) (Cert.ReferenceIdeal.Read.val_main_v52 (F := Ideal) (m ((c : Thread nD τ).loc main_arg2)))
      (Host.gather (α := Ideal .f32) Cert.ReferenceIdeal.gather_S40000x128_S640000x1_S640000x128_1_0_n_n_0_1_1128 (W6 m ρ c (Proc.devRef .tc main_v26)) (Cert.ReferenceIdeal.Read.val_main_v49 (F := Ideal) (m ((c : Thread nD τ).loc main_arg1)))) := by
  show StableHlo.after hostOps1 (W6 m ρ c) (Proc.devRef .tc main_v36) = _
  have h0 := at6_arg1 m ρ c
  have h1 := at6_arg2 m ρ c
  generalize W6 m ρ c = Wp at h0 h1 ⊢
  after_results
  rw [h0, h1]
  rfl
/-- The in-degrees as a column, again. -/
theorem W7_v37 : W7 m ρ c (Proc.devRef .tc main_v37) = shapeCast S40000x1 (Cert.ReferenceIdeal.Read.val_main_v8 (F := Ideal) (m ((c : Thread nD τ).loc main_arg2))) shapeCasts_S40000_S40000x1 := by
  show StableHlo.after hostOps1 (W6 m ρ c) (Proc.devRef .tc main_v37) = _
  have h0 := at6_v8 m ρ c
  generalize W6 m ρ c = Wp at h0 ⊢
  after_results
  rw [h0]
  rfl
/-- The second bias as a row. -/
theorem W7_v38 : W7 m ρ c (Proc.devRef .tc main_v38) = shapeCast S1x128 (m ((c : Thread nD τ).loc main_arg6)) shapeCasts_S128_S1x128 := by
  show StableHlo.after hostOps1 (W6 m ρ c) (Proc.devRef .tc main_v38) = _
  have h0 := at6_arg6 m ρ c
  generalize W6 m ρ c = Wp at h0 ⊢
  after_results
  rw [h0]
  rfl

/-! ## What the third call reads, from what the second call left in its result `main_v39` -/

set_option maxHeartbeats 1600000 in
/-- The second call's result gathered along the sources. -/
theorem W9_v46 : W9 m ρ c (Proc.devRef .tc main_v46) = Host.gather Cert.ReferenceIdeal.gather_S40000x128_S640000x1_S640000x128_1_0_n_n_0_1_1128 (W8 m ρ c (Proc.devRef .tc main_v39)) (Cert.ReferenceIdeal.Read.val_main_v67 (F := Ideal) (m ((c : Thread nD τ).loc main_arg1))) := by
  show StableHlo.after hostOps2 (W8 m ρ c) (Proc.devRef .tc main_v46) = _
  have h0 := at8_arg1 m ρ c
  generalize W8 m ρ c = Wp at h0 ⊢
  after_results
  rw [h0]
  rfl
set_option maxHeartbeats 1600000 in
/-- The second call's result gathered along the destinations. -/
theorem W9_v53 : W9 m ρ c (Proc.devRef .tc main_v53) = Host.gather Cert.ReferenceIdeal.gather_S40000x128_S640000x1_S640000x128_1_0_n_n_0_1_1128 (W8 m ρ c (Proc.devRef .tc main_v39)) (Cert.ReferenceIdeal.Read.val_main_v74 (F := Ideal) (m ((c : Thread nD τ).loc main_arg2))) := by
  show StableHlo.after hostOps2 (W8 m ρ c) (Proc.devRef .tc main_v53) = _
  have h0 := at8_arg2 m ρ c
  generalize W8 m ρ c = Wp at h0 ⊢
  after_results
  rw [h0]
  rfl

end Cert.KernelIdeal.HostReads

end
-- ==== Proof.Spec.lean ====
/-
  The pieces of the computation as functions of whole arrays at the exact values, index by index; no program is
  imported here. 40000 nodes, 128 hidden features, 640000 edges.

  * `dense agg deg w b`: a graph-convolution layer after the neighbour sum: row `n` of `agg` scaled by the inverse
    square root of node `n`'s in-degree, times the weights, plus the bias.
  * `scaleRows h deg`: every row scaled by the inverse square root of its node's (out-)degree.
  * `rowNorm h n`: the Euclidean norm of row `n`, floored at the float nearest to 1e-8.
  * `normalizeRows h`: every row divided by its floored norm.
  * `pairDot s d`: per edge, the dot product of the edge's row of `s` with its row of `d`.
-/
import Idealize.ShloMosaic.PureOps.Ideal
import Idealize.ShloMosaic.Lib.ValueIdx

noncomputable section

open scoped BigOperators

namespace Cert.Gcn.Spec

open Idealize.ShloMosaic Idealize.ShloMosaic.ValueIdx

/-- The floor of the norms: the single-precision float nearest to 1e-8. -/
def floorε : EReal := Ideal.ofBits .f32 0x322BCC77#32

/-- Scaled neighbour sums times weights plus bias: entry `(n, j)` is `∑ k, (agg (n, k) · rsqrt (deg n)) · w (k, j) + b j`. -/
def dense {K : ℕ} (agg : (⟨2, ![40000, K]⟩ : Shape).Idx → EReal) (deg : (⟨2, ![40000, 1]⟩ : Shape).Idx → EReal)
    (w : (⟨2, ![K, 128]⟩ : Shape).Idx → EReal) (b : (⟨2, ![1, 128]⟩ : Shape).Idx → EReal) :
    (⟨2, ![40000, 128]⟩ : Shape).Idx → EReal :=
  fun i => (∑ k : Fin K, (agg (ix2 (i 0) k) * Ideal.rsqrt (deg (ix2 (i 0) (0 : Fin 1)))) * w (ix2 k (i 1)))
    + b (ix2 (0 : Fin 1) (i 1))

/-- Every row scaled by the inverse square root of its node's degree. -/
def scaleRows (h : (⟨2, ![40000, 128]⟩ : Shape).Idx → EReal) (deg : (⟨2, ![40000, 1]⟩ : Shape).Idx → EReal) :
    (⟨2, ![40000, 128]⟩ : Shape).Idx → EReal :=
  fun i => h i * Ideal.rsqrt (deg (ix2 (i 0) (0 : Fin 1)))

/-- The Euclidean norm of row `n`, floored. -/
def rowNorm (h : (⟨2, ![40000, 128]⟩ : Shape).Idx → EReal) (n : Fin 40000) : EReal :=
  max (Ideal.sqrt (∑ k : Fin 128, h (ix2 n k) * h (ix2 n k))) floorε

/-- Every row divided by its floored norm. -/
def normalizeRows (h : (⟨2, ![40000, 128]⟩ : Shape).Idx → EReal) : (⟨2, ![40000, 128]⟩ : Shape).Idx → EReal :=
  fun i => Ideal.div (h i) (rowNorm h (i 0))

/-- Per edge, the dot product of the edge's two rows. -/
def pairDot (s d : (⟨2, ![640000, 128]⟩ : Shape).Idx → EReal) : (⟨1, ![640000]⟩ : Shape).Idx → EReal :=
  fun e => ∑ k : Fin 128, s (ix2 (e 0) k) * d (ix2 (e 0) k)

end Cert.Gcn.Spec

end
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.LibDenseTile.lean ====
/-
  Two tile computations of a graph-convolution layer read at an index, at the exact values, for arbitrary extents.

  `dense_tile_apply`: a tile of `B` rows with `K` features, every row scaled by the inverse square root of its own
  degree (a column `[B, 1]`), multiplied into `[K, N]` weights from a zero accumulator, a bias row `[1, N]` added:
  entry `(p, q)` is `∑ k, (x (p, k) · rsqrt (deg p)) · w (k, q) + b q`. Changes of float format are the identity at
  the exact values, so the casts of the two factors to a narrower format do not show.

  `rownorm_tile_apply`: a tile `[B, N]` divided row by row by the larger of the row's Euclidean norm (the square root
  of the sum of the row's squares, taken over the `N` columns) and a floor `ε`: entry `(p, q)` is
  `v (p, q) / max (sqrt (∑ k, v (p, k) · v (p, k))) ε`.
-/
import Idealize.ShloMosaic.Lib.ValueIdx
import Idealize.ShloMosaic.Lib.ValueLayout
import Idealize.ShloMosaic.Lib.Pipeline.Value
import Idealize.ShloMosaic.PureOps.Ideal.Laws
import proofs.«164421_j43851616092221_2_alg».proof.Proof.LibPlainDot
import proofs.«164421_j43851616092221_2_alg».proof.Proof.LibColumnLayout

noncomputable section

open scoped BigOperators

namespace Cert.Gcn.DenseTile

open Idealize.ShloMosaic Idealize.ShloMosaic.ValueIdx Cert.Gcn.PlainDot Cert.Gcn.Layout

variable {B K N : ℕ}

/-- Scaled rows times weights plus a bias row, at `(p, q)`. -/
theorem dense_tile_apply (dB : DotDims ⟨2, ![B, K]⟩ ⟨2, ![K, N]⟩ ⟨2, ![B, N]⟩) (hB : IsPlain dB)
    (hb1 : (⟨2, ![B, 1]⟩ : Shape).Broadcasts ⟨2, ![B, K]⟩) (hb2 : (⟨2, ![1, N]⟩ : Shape).Broadcasts ⟨2, ![B, N]⟩)
    (ht : (FTy.bf16).bits < (FTy.f32).bits)
    (x : FVec Ideal ⟨2, ![B, K]⟩ .f32) (deg : FVec Ideal ⟨2, ![B, 1]⟩ .f32) (w : FVec Ideal ⟨2, ![K, N]⟩ .f32)
    (b : FVec Ideal ⟨2, ![1, N]⟩ .f32) (p : Fin B) (q : Fin N) :
    addf (matmul dB none (truncf .bf16 (mulf x (broadcastTo ⟨2, ![B, K]⟩ (rsqrt deg) hb1)) ht) (truncf .bf16 w ht)
        (constant ⟨2, ![B, N]⟩ .f32 0x00000000#32)) (broadcastTo ⟨2, ![B, N]⟩ b hb2) (ix2 p q)
      = (∑ k : Fin K, ((x (ix2 p k) : EReal) * Ideal.rsqrt (deg (ix2 p (0 : Fin 1)))) * (w (ix2 k q) : EReal))
          + b (ix2 (0 : Fin 1) q) := by
  rw [addf_apply, matmul_zero_apply hB, broadcastTo_1b_ab_apply]
  refine congrArg (· + _) (Finset.sum_congr rfl fun k _ => ?_)
  show (x (ix2 p k) : EReal) * (broadcastTo ⟨2, ![B, K]⟩ (rsqrt deg) hb1 (ix2 p k)) * (w (ix2 k q) : EReal) = _
  rw [broadcastTo_a1_ab_apply]
  rfl

/-- A tile divided row by row by the larger of the row's Euclidean norm and a floor, at `(p, q)`. -/
theorem rownorm_tile_apply (hr : (⟨2, ![B, N]⟩ : Shape).Reduces [1] ⟨1, ![B]⟩) (hφ : FKind.Formats FTy.f32)
    (hacc : (0x00000000#32 : BitVec (FTy.f32).bits) = FKind.add.neutral FTy.f32 hφ)
    (hc : (⟨1, ![B]⟩ : Shape).ShapeCasts ⟨2, ![B, 1]⟩) (hb : (⟨2, ![B, 1]⟩ : Shape).Broadcasts ⟨2, ![B, N]⟩)
    (ε : Ideal .f32) (v : FVec Ideal ⟨2, ![B, N]⟩ .f32) (p : Fin B) (q : Fin N) :
    divf v (broadcastTo ⟨2, ![B, N]⟩ (maximumf (sqrt (shapeCast ⟨2, ![B, 1]⟩
        (multiReduction .add [1] ⟨1, ![B]⟩ (mulf v v) 0x00000000#32 hr hφ hacc) hc)) (broadcast ⟨2, ![B, 1]⟩ ε)) hb) (ix2 p q)
      = Ideal.div (v (ix2 p q)) (max (Ideal.sqrt (∑ k : Fin N, (v (ix2 p k) : EReal) * (v (ix2 p k) : EReal))) ε) := by
  rw [divf_apply, broadcastTo_a1_ab_apply]
  refine congrArg (Ideal.div (v (ix2 p q))) ?_
  show max (Ideal.sqrt (shapeCast ⟨2, ![B, 1]⟩ (multiReduction .add [1] ⟨1, ![B]⟩ (mulf v v) 0x00000000#32 hr hφ hacc) hc
    (ix2 p (0 : Fin 1)))) ε = _
  rw [shapeCast_a_a1_apply]
  refine congrArg (fun z => max (Ideal.sqrt z) ε) ?_
  refine (Ideal.multiReduction_add_single (mulf v v) _ hr hφ hacc (ix1 p)).trans ?_
  refine Finset.sum_congr rfl fun k _ => ?_
  have hl : hr.lift (ix1 p) k = ix2 p ⟨k.val, k.isLt⟩ :=
    funext fun a => Fin.ext (by match a with | ⟨0, _⟩ => rfl | ⟨1, _⟩ => rfl)
  show (v (hr.lift (ix1 p) k) : EReal) * v (hr.lift (ix1 p) k) = _
  rw [hl]
  rfl

end Cert.Gcn.DenseTile

end
-- ==== Proof.Layer1.lean ====
/-
  The first pallas_call, read as one function of whole arrays. Grid point `t` (of 10) takes rows
  4000·t … 4000·t + 3999 of the neighbour sums (40000 × 2), of the in-degree column and of the out-degree column, the
  whole 2 × 128 weights and the bias row; it scales every row by the inverse square root of its in-degree, multiplies
  by the weights, adds the bias, and scales every row of the result by the inverse square root of its out-degree
  (the scaling the next layer's input needs); it writes the 4000 × 128 tile back to the same rows of the result.
  The tiles cover the result, so after the call the result is `scaleRows (dense …) outdeg` of the five arrays as the
  call found them.
-/
import proofs.«164421_j43851616092221_2_alg».proof.Proof.Gen.KernelIdeal.Frame
import proofs.«164421_j43851616092221_2_alg».proof.Proof.Spec
import proofs.«164421_j43851616092221_2_alg».proof.Proof.LibDenseTile
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)
open Cert.Gcn.Spec Cert.Gcn.DenseTile Cert.Gcn.PlainDot Cert.Gcn.Layout

namespace Cert.KernelIdeal.Layer1

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The tile before the out-degree scaling: scaled rows times weights plus bias. -/
def lin (x0 : Vec Ideal S4000x2 .f32) (x1 : Vec Ideal S4000x1 .f32) (x3 : Vec Ideal S2x128 .f32)
    (x4 : Vec Ideal S1x128 .f32) : FVec Ideal S4000x128 .f32 :=
  addf (matmul dot_S4000x2_S2x128_S4000x128_1_0_0_1_n_n none
      (truncf .bf16 (mulf x0 (broadcastTo S4000x2 (rsqrt x1) broadcasts_S4000x1_S4000x2)) bitsLt_bf16_f32)
      (truncf .bf16 x3 bitsLt_bf16_f32) (constant S4000x128 .f32 0x00000000#32))
    (broadcastTo S4000x128 x4 broadcasts_S1x128_S4000x128)

theorem plain : IsPlain dot_S4000x2_S2x128_S4000x128_1_0_0_1_n_n := ⟨rfl, rfl, rfl, rfl, rfl, rfl, rfl, rfl⟩

/-- One tile at an entry: the out-degree-scaled layer of the whole arrays at the corresponding entry. -/
theorem tile_at (x0 : Vec Ideal S4000x2 .f32) (x1 x2 : Vec Ideal S4000x1 .f32) (x3 : Vec Ideal S2x128 .f32)
    (x4 : Vec Ideal S1x128 .f32) (agg : S40000x2.Idx → EReal) (din dout : S40000x1.Idx → EReal)
    (w : S2x128.Idx → EReal) (b : S1x128.Idx → EReal) (j : S4000x128.Idx) (i : S40000x128.Idx)
    (hcol : (i 1).val = (j 1).val)
    (h0 : ∀ k : Fin 2, (x0 (ix2 (j 0) k) : EReal) = agg (ix2 (i 0) k))
    (h1 : (x1 (ix2 (j 0) (0 : Fin 1)) : EReal) = din (ix2 (i 0) (0 : Fin 1)))
    (h2 : (x2 (ix2 (j 0) (0 : Fin 1)) : EReal) = dout (ix2 (i 0) (0 : Fin 1)))
    (h3 : ∀ (k : Fin 2) (q : Fin 128), (x3 (ix2 k q) : EReal) = w (ix2 k q))
    (h4 : ∀ q : Fin 128, (x4 (ix2 (0 : Fin 1) q) : EReal) = b (ix2 (0 : Fin 1) q)) :
    (k0_pay1 (F := Ideal) x0 x1 x3 x4 x2 j : EReal) = scaleRows (dense agg din w b) dout i := by
  obtain ⟨p, q, rfl⟩ : ∃ (p : Fin 4000) (q : Fin 128), j = ix2 p q := ⟨j 0, j 1, eq_ix2 j⟩
  obtain ⟨n, q', rfl⟩ : ∃ (n : Fin 40000) (q' : Fin 128), i = ix2 n q' := ⟨i 0, i 1, eq_ix2 i⟩
  obtain rfl : q = q' := (Fin.ext hcol).symm
  have hpay : k0_pay1 (F := Ideal) x0 x1 x3 x4 x2
      = mulf (lin x0 x1 x3 x4) (broadcastTo S4000x128 (rsqrt x2) broadcasts_S4000x1_S4000x128) := by
    unfold k0_pay1 lin
    simp only [shapeCast_self]
  rw [hpay, mulf_apply, broadcastTo_a1_ab_apply]
  unfold scaleRows
  show (lin x0 x1 x3 x4 (ix2 p q) : EReal) * Ideal.rsqrt (x2 (ix2 p (0 : Fin 1))) = _
  rw [h2]
  refine congrArg (· * _) ?_
  unfold lin dense
  refine (dense_tile_apply _ plain _ _ _ x0 x1 x3 x4 p q).trans ?_
  rw [h1, h4 q]
  refine congrArg (· + _) (Finset.sum_congr rfl fun k _ => ?_)
  rw [h0 k, h3 k q]

/-- The printed index maps over the grid: the row windows' block index is the grid point, the weights and the bias
    stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the scaled layer of the five arrays as the call finds them. -/
theorem flushed_eq (c : Dev nD) (t : Fin cfg0.N) :
    (dat0 (F := Ideal) V c).flushed 5 t = ((cfg0.win 5).blk t).view.read (Elt Ideal)
      (scaleRows (dense (V c main_v22) (V c main_v23) (V c main_arg3) (V c main_v25)) (V c main_v24)) := by
  show (cfg0.win 5).cut (grid0.coords t) ((dat0 V c).after 5 t) = _
  rw [after0_5]
  unfold out0_5
  rw [View.canon_unit_zero hz2]
  simp only [View.ld_unit_zero (S := S4000x2) hz2, View.ld_unit_zero (S := S4000x1) hz2,
    View.ld_unit_zero (S := S2x128) hz2, View.ld_unit_zero (S := S1x128) hz2]
  obtain ⟨e00, e01, e10, e11, e20, e21, e30, e31, e40, e41, e50, e51⟩ := idx_facts t
  funext j
  show (k0_pay1 (F := Ideal) (iblk0 V c 0 t) (iblk0 V c 1 t) (iblk0 V c 3 t) (iblk0 V c 4 t) (iblk0 V c 2 t) j : EReal)
    = scaleRows (dense (V c main_v22) (V c main_v23) (V c main_arg3) (V c main_v25)) (V c main_v24) (((cfg0.win 5).blk t).view.emb j)
  have hj1 : (j 1).val < 128 := (j 1).isLt
  refine tile_at _ _ _ _ _ _ _ _ _ _ j _ ?_ (fun k => ?_) ?_ ?_ (fun k q => ?_) (fun q => ?_)
  · show win0_5.index t (1 : Fin 2) * 128 + 1 * (j 1).val = (j 1).val; omega
  · show V c main_v22 (((cfg0.win 0).blk t).view.emb (ix2 (j 0) k)) = V c main_v22 _
    refine congrArg (V c main_v22) (funext fun a => Fin.ext ?_)
    match a with
    | ⟨0, _⟩ => show win0_0.index t (0 : Fin 2) * 4000 + 1 * (j 0).val = win0_5.index t (0 : Fin 2) * 4000 + 1 * (j 0).val; omega
    | ⟨1, _⟩ => show win0_0.index t (1 : Fin 2) * 2 + 1 * k.val = k.val; omega
  · show V c main_v23 (((cfg0.win 1).blk t).view.emb (ix2 (j 0) (0 : Fin 1))) = V c main_v23 _
    refine congrArg (V c main_v23) (funext fun a => Fin.ext ?_)
    match a with
    | ⟨0, _⟩ => show win0_1.index t (0 : Fin 2) * 4000 + 1 * (j 0).val = win0_5.index t (0 : Fin 2) * 4000 + 1 * (j 0).val; omega
    | ⟨1, _⟩ => show win0_1.index t (1 : Fin 2) * 1 + 1 * 0 = 0; omega
  · show V c main_v24 (((cfg0.win 2).blk t).view.emb (ix2 (j 0) (0 : Fin 1))) = V c main_v24 _
    refine congrArg (V c main_v24) (funext fun a => Fin.ext ?_)
    match a with
    | ⟨0, _⟩ => show win0_2.index t (0 : Fin 2) * 4000 + 1 * (j 0).val = win0_5.index t (0 : Fin 2) * 4000 + 1 * (j 0).val; omega
    | ⟨1, _⟩ => show win0_2.index t (1 : Fin 2) * 1 + 1 * 0 = 0; omega
  · show V c main_arg3 (((cfg0.win 3).blk t).view.emb (ix2 k q)) = V c main_arg3 _
    refine congrArg (V c main_arg3) (funext fun a => Fin.ext ?_)
    match a with
    | ⟨0, _⟩ => show win0_3.index t (0 : Fin 2) * 2 + 1 * k.val = k.val; omega
    | ⟨1, _⟩ => show win0_3.index t (1 : Fin 2) * 128 + 1 * q.val = q.val; omega
  · show V c main_v25 (((cfg0.win 4).blk t).view.emb (ix2 (0 : Fin 1) q)) = V c main_v25 _
    refine congrArg (V c main_v25) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega

/-- An entry of the result is in point `t`'s block iff each coordinate lies in the block's range. -/
theorem mem_blk (t : Fin cfg0.N) (i : S40000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v26).slice (win0_5.rect t)).set ↔ _
  rw [View.set_slice_whole, Rect.mem_set_unit]
  exact Iff.rfl

/-- After the call the result is the scaled layer of the five arrays: row `r` lies in block `r / 4000`. -/
theorem final (c : Dev nD) : (dat0 (F := Ideal) V c).arrAt 5 cfg0.N
    = scaleRows (dense (V c main_v22) (V c main_v23) (V c main_arg3) (V c main_v25)) (V c main_v24) :=
  (dat0 (F := Ideal) V c).arrAt_eq_of_cover 5 _ (fun t _ => flushed_eq V c t) fun i => by
    have hN : grid0.N = 10 := N_0
    have hi0 : (i 0).val < 40000 := (i 0).isLt
    have hi1 : (i 1).val < 128 := (i 1).isLt
    refine ⟨⟨(i 0).val / 4000, by show (i 0).val / 4000 < grid0.N; omega⟩, flush0_5 _, ?_⟩
    rw [mem_blk]
    intro a
    obtain ⟨-, -, -, -, -, -, -, -, -, -, e50, e51⟩ := idx_facts ⟨(i 0).val / 4000, by show (i 0).val / 4000 < grid0.N; omega⟩
    match a with
    | ⟨0, _⟩ =>
      show win0_5.index _ (0 : Fin 2) * 4000 ≤ (i 0).val ∧ (i 0).val < win0_5.index _ (0 : Fin 2) * 4000 + 4000
      rw [e50]
      show (i 0).val / 4000 * 4000 ≤ (i 0).val ∧ (i 0).val < (i 0).val / 4000 * 4000 + 4000
      omega
    | ⟨1, _⟩ =>
      show win0_5.index _ (1 : Fin 2) * 128 ≤ (i 1).val ∧ (i 1).val < win0_5.index _ (1 : Fin 2) * 128 + 128
      rw [e51]
      omega

end Cert.KernelIdeal.Layer1

end
-- ==== Proof.Layer2.lean ====
/-
  The second pallas_call, read as one function of whole arrays. Grid point `t` (of 10) takes rows
  4000·t … 4000·t + 3999 of the neighbour sums (40000 × 128) and of the in-degree column, the whole 128 × 128
  weights and the bias row; it scales every row by the inverse square root of the row's degree, multiplies by the
  weights, adds the bias, and divides every row of the result by the larger of its Euclidean norm and the floor;
  it writes the 4000 × 128 tile back to the same rows of the result. The tiles cover the result, so after the call
  the result is `normalizeRows (dense …)` of the four arrays as the call found them.
-/
import proofs.«164421_j43851616092221_2_alg».proof.Proof.Gen.KernelIdeal.Frame
import proofs.«164421_j43851616092221_2_alg».proof.Proof.Spec
import proofs.«164421_j43851616092221_2_alg».proof.Proof.LibDenseTile
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)
open Cert.Gcn.Spec Cert.Gcn.DenseTile Cert.Gcn.PlainDot

namespace Cert.KernelIdeal.Layer2

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The tile before the normalisation: scaled rows times weights plus bias. -/
def lin (x0 : Vec Ideal S4000x128 .f32) (x1 : Vec Ideal S4000x1 .f32) (x2 : Vec Ideal S128x128 .f32)
    (x3 : Vec Ideal S1x128 .f32) : FVec Ideal S4000x128 .f32 :=
  addf (matmul dot_S4000x128_S128x128_S4000x128_1_0_0_1_n_n none
      (truncf .bf16 (mulf x0 (broadcastTo S4000x128 (rsqrt x1) broadcasts_S4000x1_S4000x128)) bitsLt_bf16_f32)
      (truncf .bf16 x2 bitsLt_bf16_f32) (constant S4000x128 .f32 0x00000000#32))
    (broadcastTo S4000x128 x3 broadcasts_S1x128_S4000x128)

theorem plain : IsPlain dot_S4000x128_S128x128_S4000x128_1_0_0_1_n_n := ⟨rfl, rfl, rfl, rfl, rfl, rfl, rfl, rfl⟩

/-- The tile before the normalisation at `(p, q)`, when its rows are rows of whole arrays. -/
theorem lin_at (x0 : Vec Ideal S4000x128 .f32) (x1 : Vec Ideal S4000x1 .f32) (x2 : Vec Ideal S128x128 .f32)
    (x3 : Vec Ideal S1x128 .f32) (agg : S40000x128.Idx → EReal) (deg : S40000x1.Idx → EReal)
    (w : S128x128.Idx → EReal) (b : S1x128.Idx → EReal) (p : Fin 4000) (n : Fin 40000)
    (h0 : ∀ k : Fin 128, (x0 (ix2 p k) : EReal) = agg (ix2 n k))
    (h1 : (x1 (ix2 p (0 : Fin 1)) : EReal) = deg (ix2 n (0 : Fin 1)))
    (h2 : ∀ k q : Fin 128, (x2 (ix2 k q) : EReal) = w (ix2 k q))
    (h3 : ∀ q : Fin 128, (x3 (ix2 (0 : Fin 1) q) : EReal) = b (ix2 (0 : Fin 1) q)) (q : Fin 128) :
    (lin x0 x1 x2 x3 (ix2 p q) : EReal) = dense agg deg w b (ix2 n q) := by
  unfold lin dense
  refine (dense_tile_apply _ plain _ _ _ x0 x1 x2 x3 p q).trans ?_
  rw [h1, h3 q]
  refine congrArg (· + _) (Finset.sum_congr rfl fun k _ => ?_)
  rw [h0 k, h2 k q]

/-- One tile at an entry: the normalised layer of the whole arrays at the corresponding entry. -/
theorem tile_at (x0 : Vec Ideal S4000x128 .f32) (x1 : Vec Ideal S4000x1 .f32) (x2 : Vec Ideal S128x128 .f32)
    (x3 : Vec Ideal S1x128 .f32) (agg : S40000x128.Idx → EReal) (deg : S40000x1.Idx → EReal)
    (w : S128x128.Idx → EReal) (b : S1x128.Idx → EReal) (j : S4000x128.Idx) (i : S40000x128.Idx)
    (hcol : (i 1).val = (j 1).val)
    (h0 : ∀ k : Fin 128, (x0 (ix2 (j 0) k) : EReal) = agg (ix2 (i 0) k))
    (h1 : (x1 (ix2 (j 0) (0 : Fin 1)) : EReal) = deg (ix2 (i 0) (0 : Fin 1)))
    (h2 : ∀ k q : Fin 128, (x2 (ix2 k q) : EReal) = w (ix2 k q))
    (h3 : ∀ q : Fin 128, (x3 (ix2 (0 : Fin 1) q) : EReal) = b (ix2 (0 : Fin 1) q)) :
    (k1_pay1 (F := Ideal) x0 x1 x2 x3 j : EReal) = normalizeRows (dense agg deg w b) i := by
  obtain ⟨p, q, rfl⟩ : ∃ (p : Fin 4000) (q : Fin 128), j = ix2 p q := ⟨j 0, j 1, eq_ix2 j⟩
  obtain ⟨n, q', rfl⟩ : ∃ (n : Fin 40000) (q' : Fin 128), i = ix2 n q' := ⟨i 0, i 1, eq_ix2 i⟩
  obtain rfl : q = q' := (Fin.ext hcol).symm
  have hpay : k1_pay1 (F := Ideal) x0 x1 x2 x3
      = truncf .bf16 (divf (lin x0 x1 x2 x3) (broadcastTo S4000x128 (maximumf (sqrt (shapeCast S4000x1
          (multiReduction .add [1] S4000 (mulf (lin x0 x1 x2 x3) (lin x0 x1 x2 x3)) 0x00000000#32 reduces_S4000x128_S4000 (.inl rfl) rfl)
          shapeCasts_S4000_S4000x1)) (broadcast S4000x1 (Scalar.ofBits .f32 0x322BCC77#32))) broadcasts_S4000x1_S4000x128))
          bitsLt_bf16_f32 := by
    unfold k1_pay1 lin
    simp only [shapeCast_self]
  rw [hpay, truncf_apply]
  refine (rownorm_tile_apply reduces_S4000x128_S4000 _ _ shapeCasts_S4000_S4000x1 broadcasts_S4000x1_S4000x128
    (Scalar.ofBits .f32 0x322BCC77#32) (lin x0 x1 x2 x3) p q).trans ?_
  have hv : ∀ q' : Fin 128, (lin x0 x1 x2 x3 (ix2 p q') : EReal) = dense agg deg w b (ix2 n q') :=
    lin_at x0 x1 x2 x3 agg deg w b p n h0 h1 h2 h3
  unfold normalizeRows rowNorm floorε
  rw [hv q]
  refine congrArg (fun z => Ideal.div _ (max (Ideal.sqrt z) _)) (Finset.sum_congr rfl fun k _ => ?_)
  rw [hv k]

/-- The printed index maps over the grid: the row windows' block index is the grid point, the weights and the bias
    stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the normalised layer of the four arrays as the call finds them. -/
theorem flushed_eq (c : Dev nD) (t : Fin cfg1.N) :
    (dat1 (F := Ideal) V c).flushed 4 t = ((cfg1.win 4).blk t).view.read (Elt Ideal)
      (normalizeRows (dense (V c main_v36) (V c main_v37) (V c main_arg5) (V c main_v38))) := by
  show (cfg1.win 4).cut (grid1.coords t) ((dat1 V c).after 4 t) = _
  rw [after1_4]
  unfold out1_4
  rw [View.canon_unit_zero hz2]
  simp only [View.ld_unit_zero (S := S4000x128) hz2, View.ld_unit_zero (S := S4000x1) hz2,
    View.ld_unit_zero (S := S128x128) hz2, View.ld_unit_zero (S := S1x128) hz2]
  obtain ⟨e00, e01, e10, e11, e20, e21, e30, e31, e40, e41⟩ := idx_facts t
  funext j
  show (k1_pay1 (F := Ideal) (iblk1 V c 0 t) (iblk1 V c 1 t) (iblk1 V c 2 t) (iblk1 V c 3 t) j : EReal)
    = normalizeRows (dense (V c main_v36) (V c main_v37) (V c main_arg5) (V c main_v38)) (((cfg1.win 4).blk t).view.emb j)
  have hj1 : (j 1).val < 128 := (j 1).isLt
  refine tile_at _ _ _ _ _ _ _ _ j _ ?_ (fun k => ?_) ?_ (fun k q => ?_) (fun q => ?_)
  · show win1_4.index t (1 : Fin 2) * 128 + 1 * (j 1).val = (j 1).val; omega
  · show V c main_v36 (((cfg1.win 0).blk t).view.emb (ix2 (j 0) k)) = V c main_v36 _
    refine congrArg (V c main_v36) (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * k.val = k.val; omega
  · show V c main_v37 (((cfg1.win 1).blk t).view.emb (ix2 (j 0) (0 : Fin 1))) = V c main_v37 _
    refine congrArg (V c main_v37) (funext fun a => Fin.ext ?_)
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 1 + 1 * 0 = 0; omega
  · show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show V c main_v38 (((cfg1.win 3).blk t).view.emb (ix2 (0 : Fin 1) q)) = V c main_v38 _
    refine congrArg (V c main_v38) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-- An entry of the result is in point `t`'s block iff each coordinate lies in the block's range. -/
theorem mem_blk (t : Fin cfg1.N) (i : S40000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v39).slice (win1_4.rect t)).set ↔ _
  rw [View.set_slice_whole, Rect.mem_set_unit]
  exact Iff.rfl

/-- After the call the result is the normalised layer of the four arrays: row `r` lies in block `r / 4000`. -/
theorem final (c : Dev nD) : (dat1 (F := Ideal) V c).arrAt 4 cfg1.N
    = normalizeRows (dense (V c main_v36) (V c main_v37) (V c main_arg5) (V c main_v38)) :=
  (dat1 (F := Ideal) V c).arrAt_eq_of_cover 4 _ (fun t _ => flushed_eq V c t) fun i => by
    have hN : grid1.N = 10 := N_1
    have hi0 : (i 0).val < 40000 := (i 0).isLt
    have hi1 : (i 1).val < 128 := (i 1).isLt
    refine ⟨⟨(i 0).val / 4000, by show (i 0).val / 4000 < grid1.N; omega⟩, flush1_4 _, ?_⟩
    rw [mem_blk]
    intro a
    obtain ⟨-, -, -, -, -, -, -, -, e40, e41⟩ := idx_facts ⟨(i 0).val / 4000, by show (i 0).val / 4000 < grid1.N; omega⟩
    match a with
    | ⟨0, _⟩ =>
      show win1_4.index _ (0 : Fin 2) * 4000 ≤ (i 0).val ∧ (i 0).val < win1_4.index _ (0 : Fin 2) * 4000 + 4000
      rw [e40]
      show (i 0).val / 4000 * 4000 ≤ (i 0).val ∧ (i 0).val < (i 0).val / 4000 * 4000 + 4000
      omega
    | ⟨1, _⟩ =>
      show win1_4.index _ (1 : Fin 2) * 128 ≤ (i 1).val ∧ (i 1).val < win1_4.index _ (1 : Fin 2) * 128 + 128
      rw [e41]
      omega

end Cert.KernelIdeal.Layer2

end
-- ==== Proof.EdgeDot.lean ====
/-
  The third pallas_call, read as one function of whole arrays. Each of its 125 grid points takes rows
  5120·t … 5120·t + 5119 of the two gathered row arrays (640000 × 128), multiplies them entry by entry and sums every
  row over its 128 columns; the point writes those 5120 row sums to entries 5120·t … of the result. The blocks tile
  the result, so after the call entry `e` of the result is the dot product of row `e` of the first array with row
  `e` of the second — whatever the two arrays hold when the call is entered.
-/
import proofs.«164421_j43851616092221_2_alg».proof.Proof.Gen.KernelIdeal.Frame
import proofs.«164421_j43851616092221_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.EdgeDot

open Cert.KernelIdeal Cert.KernelIdeal.Gen Cert.Gcn.Spec

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- One tile: entry `j` of what a point stores is the sum over the 128 columns of the products of the two tiles'
    row `j`; when those rows are rows `e` of two arrays it is `pairDot` of the arrays at `e`. -/
theorem tile_at (x0 x1 : Vec Ideal S5120x128 .bf16) (s d : S640000x128.Idx → EReal) (j : S5120.Idx) (e : S640000.Idx)
    (h0 : ∀ k : Fin 128, (x0 (ix2 (j 0) k) : EReal) = s (ix2 (e 0) k))
    (h1 : ∀ k : Fin 128, (x1 (ix2 (j 0) k) : EReal) = d (ix2 (e 0) k)) :
    k2_pay1 (F := Ideal) x0 x1 j = pairDot s d e := by
  unfold k2_pay1 pairDot
  simp only [shapeCast_self]
  refine (Ideal.multiReduction_add_single _ _ reduces_S5120x128_S5120 _ _ j).trans ?_
  refine Finset.sum_congr rfl fun k _ => ?_
  have hl : reduces_S5120x128_S5120.lift j k = ix2 (j 0) k :=
    funext fun a => Fin.ext (by match a with | ⟨0, _⟩ => rfl | ⟨1, _⟩ => rfl)
  show (x0 (reduces_S5120x128_S5120.lift j k) : EReal) * x1 (reduces_S5120x128_S5120.lift j k) = _
  rw [hl]
  exact congrArg₂ (fun a b : EReal => a * b) (h0 k) (h1 k)

/-- The printed index maps over the grid: every window's block index is the grid point, column block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 ∧ win2_2.index t (0 : Fin 1) = t.val :=
  (by decide +kernel : ∀ t : Fin grid2.N, _)

/-- What point `t` writes back is block `t` of `pairDot` of the two arrays as the call finds them. -/
theorem flushed_eq (c : Dev nD) (t : Fin cfg2.N) :
    (dat2 (F := Ideal) V c).flushed 2 t
      = ((cfg2.win 2).blk t).view.read (Elt Ideal) (pairDot (V c main_v46) (V c main_v53)) := by
  show (cfg2.win 2).cut (grid2.coords t) ((dat2 V c).after 2 t) = _
  rw [after2_2]
  unfold out2_2
  rw [View.canon_unit_zero hz1]
  simp only [View.ld_unit_zero (S := S5120x128) hz2]
  obtain ⟨e0, e1, e2, e3, e4⟩ := idx_facts t
  funext j
  show k2_pay1 (F := Ideal) (iblk2 V c 0 t) (iblk2 V c 1 t) j
    = pairDot (V c main_v46) (V c main_v53) (((cfg2.win 2).blk t).view.emb j)
  refine tile_at _ _ _ _ j _ (fun k => ?_) (fun k => ?_)
  · show V c main_v46 (((cfg2.win 0).blk t).view.emb (ix2 (j 0) k)) = V c main_v46 _
    refine congrArg (V c main_v46) (funext fun a => Fin.ext ?_)
    match a with
    | ⟨0, _⟩ => show win2_0.index t (0 : Fin 2) * 5120 + 1 * (j 0).val = win2_2.index t (0 : Fin 1) * 5120 + 1 * (j 0).val; omega
    | ⟨1, _⟩ => show win2_0.index t (1 : Fin 2) * 128 + 1 * k.val = k.val; omega
  · show V c main_v53 (((cfg2.win 1).blk t).view.emb (ix2 (j 0) k)) = V c main_v53 _
    refine congrArg (V c main_v53) (funext fun a => Fin.ext ?_)
    match a with
    | ⟨0, _⟩ => show win2_1.index t (0 : Fin 2) * 5120 + 1 * (j 0).val = win2_2.index t (0 : Fin 1) * 5120 + 1 * (j 0).val; omega
    | ⟨1, _⟩ => show win2_1.index t (1 : Fin 2) * 128 + 1 * k.val = k.val; omega

/-- An entry of the result is in point `t`'s block iff it lies in the block's range. -/
theorem mem_blk (t : Fin cfg2.N) (i : S640000.Idx) :
    i ∈ ((cfg2.win 2).blk t).view.set ↔ ∀ a : Fin 1, win2_2.index t a * S5120.size a ≤ (i a).val ∧ (i a).val < win2_2.index t a * S5120.size a + S5120.size a := by
  show i ∈ ((View.whole main_v54).slice (win2_2.rect t)).set ↔ _
  rw [View.set_slice_whole, Rect.mem_set_unit]
  exact Iff.rfl

/-- After the call the result array is `pairDot` of the two arrays as the call found them: the 125 blocks of 5120
    entries tile the 640000 entries, entry `e` lying in block `e / 5120`. -/
theorem final (c : Dev nD) :
    (dat2 (F := Ideal) V c).arrAt 2 cfg2.N = pairDot (V c main_v46) (V c main_v53) :=
  (dat2 (F := Ideal) V c).arrAt_eq_of_cover 2 _ (fun t _ => flushed_eq V c t) fun i => by
    have hN : grid2.N = 125 := N_2
    have hi : (i 0).val < 640000 := (i 0).isLt
    refine ⟨⟨(i 0).val / 5120, by show (i 0).val / 5120 < grid2.N; omega⟩, flush2_2 _, ?_⟩
    rw [mem_blk]
    intro a
    obtain ⟨-, -, -, -, e4⟩ := idx_facts ⟨(i 0).val / 5120, by show (i 0).val / 5120 < grid2.N; omega⟩
    match a with
    | ⟨0, _⟩ =>
      show win2_2.index _ (0 : Fin 1) * 5120 ≤ (i 0).val ∧ (i 0).val < win2_2.index _ (0 : Fin 1) * 5120 + 5120
      rw [e4]
      show (i 0).val / 5120 * 5120 ≤ (i 0).val ∧ (i 0).val < (i 0).val / 5120 * 5120 + 5120
      omega

end Cert.KernelIdeal.EdgeDot

end
-- ==== Proof.LibLayerLaw.lean ====
/-
  The one algebraic law that joins the two arrangements of a graph-convolution layer, on the extended reals.
  The reference normalises every edge's message by both end points' normalisers and adds the node's own row
  scaled by the square of its normaliser; the kernel pre-scales every row by its own normaliser once, sums the
  gathered pre-scaled rows, adds the node's own pre-scaled row and multiplies the whole by the receiving node's
  normaliser. The two agree because a factor `D` with `0 ≤ D < ⊤` distributes over sums of extended reals
  (multiplication by such a `D` never meets `⊤ + ⊥` differently on the two sides), and multiplication is
  commutative and associative. Nothing is asked of the summands: they may be infinite.
-/
import Mathlib.Data.EReal.Operations
import Mathlib.Data.EReal.Inv
import Mathlib.Algebra.BigOperators.Group.Finset.Basic

namespace Cert.Gcn

open scoped BigOperators

/-- A nonnegative finite factor distributes over a finite sum of extended reals. -/
theorem mul_sum_of_nonneg_of_ne_top {ι : Type*} (s : Finset ι) (f : ι → EReal) {D : EReal} (h0 : 0 ≤ D) (ht : D ≠ ⊤) :
    D * ∑ j ∈ s, f j = ∑ j ∈ s, D * f j := by
  classical
  induction s using Finset.induction_on with
  | empty => simp
  | insert a s ha ih =>
    rw [Finset.sum_insert ha, Finset.sum_insert ha, EReal.left_distrib_of_nonneg_of_ne_top h0 ht, ih]

/-- THE LAYER LAW. `t j` is the gathered row entry of edge `j`, `a j` the sending node's normaliser, `D` the
    receiving node's, `H` the node's own row entry, `B` the bias. Left: the kernel's arrangement. Right: the
    reference's. (Each side's sum starts from the zero the scatter accumulates into.) -/
theorem layer_law {ι : Type*} (s : Finset ι) (t a : ι → EReal) {D : EReal} (h0 : 0 ≤ D) (ht : D ≠ ⊤) (H B : EReal) :
    D * ((0 + ∑ j ∈ s, t j * a j) + H * D) + B = ((0 + ∑ j ∈ s, t j * (a j * D)) + H * (D * D)) + B := by
  rw [EReal.left_distrib_of_nonneg_of_ne_top h0 ht, zero_add, zero_add, mul_sum_of_nonneg_of_ne_top s _ h0 ht]
  congr 2
  · exact Finset.sum_congr rfl fun j _ => by rw [mul_comm D, mul_assoc]
  · rw [mul_comm D, mul_assoc]

/-- A real number's image is a nonnegative finite extended real when the number is nonnegative. -/
theorem coe_nonneg_ne_top {d : ℝ} (hd : 0 ≤ d) : (0 : EReal) ≤ (d : EReal) ∧ (d : EReal) ≠ ⊤ :=
  ⟨EReal.coe_nonneg.mpr hd, EReal.coe_ne_top d⟩

end Cert.Gcn
-- ==== Proof.LibCosineLaw.lean ====
/-
  The law that joins "normalise each vector, then take the dot product" with "take the dot product, then divide by
  the product of the norms", on the extended reals. For divisors `a, b > 0` (possibly `⊤`):
  `∑ k, (x k / a) · (y k / b) = (∑ k, x k · y k) / (a · b)`.
  Division by a positive divisor is multiplication by its inverse; the inverse of a positive extended real is a
  nonnegative REAL number (`⊤⁻¹ = 0`), and a nonnegative real factor distributes over any finite sum of extended
  reals, so nothing is asked of the summands `x k`, `y k`: they may be infinite. Also: the float `0x322BCC77`
  (the single-precision float nearest to 1e-8) is a positive number, so a maximum with it is positive.
-/
import Mathlib.Data.EReal.Operations
import Mathlib.Data.EReal.Inv
import Idealize.ShloMosaic.PureOps.Ideal
import proofs.«164421_j43851616092221_2_alg».proof.Proof.LibLayerLaw

noncomputable section

open scoped BigOperators

namespace Cert.Gcn

open Idealize.ShloMosaic

/-- The inverse of a nonnegative extended real is a nonnegative real number. -/
theorem exists_real_of_inv {a : EReal} (ha : 0 ≤ a) : ∃ r : ℝ, 0 ≤ r ∧ a⁻¹ = (r : EReal) :=
  ⟨(a⁻¹).toReal, EReal.toReal_nonneg (EReal.inv_nonneg_of_nonneg ha),
    (EReal.coe_toReal (EReal.inv_lt_top a).ne (EReal.bot_lt_inv a).ne').symm⟩

/-- Division by a positive divisor is multiplication by its inverse. -/
theorem div_of_pos (x : EReal) {a : EReal} (ha : 0 < a) : Ideal.div x a = x * a⁻¹ := by
  unfold Ideal.div
  rw [if_neg ha.ne']

/-- THE LAW: normalising both vectors first, or dividing the dot product by the product of the divisors. -/
theorem cosine_law {ι : Type*} (s : Finset ι) (x y : ι → EReal) {a b : EReal} (ha : 0 < a) (hb : 0 < b) :
    ∑ k ∈ s, Ideal.div (x k) a * Ideal.div (y k) b = Ideal.div (∑ k ∈ s, x k * y k) (a * b) := by
  obtain ⟨r, hr0, hr⟩ := exists_real_of_inv ha.le
  obtain ⟨t, ht0, ht⟩ := exists_real_of_inv hb.le
  rw [div_of_pos _ (EReal.mul_pos ha hb), EReal.mul_inv, hr, ht, ← EReal.coe_mul]
  obtain ⟨h0, htop⟩ := coe_nonneg_ne_top (mul_nonneg hr0 ht0)
  rw [mul_comm (∑ k ∈ s, x k * y k), mul_sum_of_nonneg_of_ne_top s _ h0 htop]
  refine Finset.sum_congr rfl fun k _ => ?_
  rw [div_of_pos _ ha, div_of_pos _ hb, hr, ht, EReal.coe_mul, mul_mul_mul_comm, mul_comm]

/-- The single-precision float nearest to 1e-8 is positive. -/
theorem floor_pos : (0 : EReal) < Ideal.ofBits .f32 0x322BCC77#32 := by
  have h : Ideal.ofBits .f32 0x322BCC77#32
      = (((1 : ℝ) * ((2 ^ 23 + 2870391 : ℕ) : ℝ) * (2 : ℝ) ^ ((100 : ℤ) - 127 - 23) : ℝ) : EReal) := by
    simp [Ideal.ofBits, Ideal.ieee]
  rw [h]
  exact EReal.coe_pos.mpr (by positivity)

/-- A maximum with a positive number is positive. -/
theorem max_floor_pos (z : EReal) : 0 < max z (Ideal.ofBits .f32 0x322BCC77#32) :=
  lt_max_of_lt_right floor_pos

end Cert.Gcn

end
-- ==== Proof.LibGatherScatterRows.lean ====
/-
  Row gathers and row scatters read at an index: `stablehlo.gather` / `"stablehlo.scatter"` along axis 0 of a one- or
  two-axis operand with a column `[E, 1]` of start indices (collapsed / inserted axis 0, start index map `[0]`, index
  vector on axis 1, no batching axes). A gathered element is the operand's at the start index read signed and clamped
  into the rows (`clampRow`); an update lands on row `r` exactly when its scatter index, read signed, is `r`.
  Stated for arbitrary dimension-number records over literal shapes, the records' fields as hypotheses.
-/
import Idealize.ShloMosaic.Lib.ValueIdx

namespace Idealize.ShloMosaic.GatherScatterRows

open Idealize.ShloMosaic Idealize.ShloMosaic.ValueIdx

/-- A start index read signed and clamped into the rows `[0, N − 1]`. -/
def clampRow {w : Nat} (N : Nat) (v : BitVec w) : Nat := min v.toInt.toNat (N - 1)

/-- The clamped row is a row. -/
theorem clampRow_lt {w : Nat} {N : Nat} (hN : 0 < N) (v : BitVec w) : clampRow N v < N := by
  unfold clampRow; omega

/-- **A row gather of a two-axis operand, read at an index.** `stablehlo.gather` of an operand `[N, C]` at start
    indices `[E, 1]` with offset_dims `[1]`, collapsed_slice_dims `[0]`, start_index_map `[0]`, index_vector_dim 1 and
    no batching axes: result element `(e, k)` is the operand at row `idx[e, 0]` (read signed, clamped into
    `[0, N − 1]`) and column `k`. -/
theorem gather_rows2_apply {α : Type} {N C E w : Nat} (hN : 0 < N)
    (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (x : (⟨2, ![N, C]⟩ : Shape).Idx → α) (idx : IVec ⟨2, ![E, 1]⟩ w) (y : (⟨2, ![E, C]⟩ : Shape).Idx) :
    Host.gather d x idx y = x (ix2 ⟨clampRow N (idx (ix2 (y 0) 0)), clampRow_lt hN _⟩ (y 1)) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![E, 1]⟩) (t := ⟨2, ![E, C]⟩)
        ⟨[1], [0], [], [], [0], 1, ss, wf⟩ y ⟨List.idxOf (0 : Fin 2) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨2, ![N, C]⟩) (si := ⟨2, ![E, 1]⟩) (t := ⟨2, ![E, C]⟩)
        ⟨[1], [0], [], [], [0], 1, ss, wf⟩ y ⟨List.idxOf (0 : Fin 2) [0], _⟩)).toInt.toNat (N - ss 0) = _
    rw [hsi, hs0]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add]
    rfl

/-- **A row gather of a one-axis operand, read at an index.** `stablehlo.gather` of an operand `[N]` at start indices
    `[E, 1]` with offset_dims `[]`, collapsed_slice_dims `[0]`, start_index_map `[0]`, index_vector_dim 1 and no
    batching axes: result element `e` is the operand at `idx[e, 0]`, read signed and clamped into `[0, N − 1]`. -/
theorem gather_rows1_apply {α : Type} {N E w : Nat} (hN : 0 < N)
    (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (x : (⟨1, ![N]⟩ : Shape).Idx → α) (idx : IVec ⟨2, ![E, 1]⟩ w) (y : (⟨1, ![E]⟩ : Shape).Idx) :
    Host.gather d x idx y = x (ix1 ⟨clampRow N (idx (ix2 (y 0) 0)), clampRow_lt hN _⟩) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨1, ![N]⟩) (si := ⟨2, ![E, 1]⟩) (t := ⟨1, ![E]⟩)
        ⟨[], [0], [], [], [0], 1, ss, wf⟩ y ⟨List.idxOf (0 : Fin 1) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨1, ![N]⟩) (si := ⟨2, ![E, 1]⟩) (t := ⟨1, ![E]⟩)
        ⟨[], [0], [], [], [0], 1, ss, wf⟩ y ⟨List.idxOf (0 : Fin 1) [0], _⟩)).toInt.toNat (N - ss 0) = _
    rw [hsi, hs0]
    rfl

/-- An axis is kept exactly when it is not one of the removed axes. -/
theorem mem_kept {s : Shape} (axes : List (Fin s.rank)) (a : Fin s.rank) : a ∈ s.kept axes ↔ a ∉ axes := by
  simp [Shape.kept, List.mem_filter, List.mem_finRange]

/-- An axis of a two-axis shape is axis 0 or axis 1. -/
theorem axis2_cases {sz : Fin 2 → Nat} (a : Fin (Shape.rank ⟨2, sz⟩)) : a = 0 ∨ a = 1 := by
  rcases a with ⟨_ | _ | n, h⟩
  · exact Or.inl rfl
  · exact Or.inr rfl
  · exact absurd h (by show ¬ (n + 2 < 2); omega)

/-- **Where a row scatter of a two-axis operand lands.** For `stablehlo.scatter` into an operand `[N, C]` at scatter
    indices `[E, 1]` with updates `[E, C]`, update_window_dims `[1]`, inserted_window_dims `[0]`,
    scatter_dims_to_operand_dims `[0]` and index_vector_dim 1: update `(e, k)` lands at operand index `i` exactly
    when its scatter index `idx[e, 0]`, read signed, is `i`'s row (so it is a row: not negative, below `N`) and `k` is
    `i`'s column. -/
theorem scatter_rows2_resultIdx {N C E w : Nat}
    (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (idx : IVec ⟨2, ![E, 1]⟩ w) (j : (⟨2, ![E, C]⟩ : Shape).Idx) (i : (⟨2, ![N, C]⟩ : Shape).Idx) :
    d.resultIdx? j idx = some i ↔ ((idx (ix2 (j 0) 0)).toInt = ((i 0).val : Int) ∧ j 1 = i 1) := by
  obtain ⟨uw, iw, sd, iv, wf⟩ := d
  dsimp only at hu hi hs hv
  subst hu hi hs hv
  have hst0 : ScatterDims.start (s := ⟨2, ![N, C]⟩) (si := ⟨2, ![E, 1]⟩) (u := ⟨2, ![E, C]⟩) ⟨[1], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hst1 : ScatterDims.start (s := ⟨2, ![N, C]⟩) (si := ⟨2, ![E, 1]⟩) (u := ⟨2, ![E, C]⟩) ⟨[1], [0], [0], 1, wf⟩ j idx 1 = 0 := by
    unfold ScatterDims.start
    rw [dif_neg (fun h => absurd (congrArg Fin.val (List.mem_singleton.mp h)) Nat.one_ne_zero)]
  have hw0 : ScatterDims.window (s := ⟨2, ![N, C]⟩) (si := ⟨2, ![E, 1]⟩) (u := ⟨2, ![E, C]⟩) ⟨[1], [0], [0], 1, wf⟩ j 0 = 0 := by
    unfold ScatterDims.window
    rw [dif_neg (fun h => (mem_kept _ _).mp h (List.mem_singleton.mpr rfl))]
  have hw1 : ScatterDims.window (s := ⟨2, ![N, C]⟩) (si := ⟨2, ![E, 1]⟩) (u := ⟨2, ![E, C]⟩) ⟨[1], [0], [0], 1, wf⟩ j 1 = (j 1).val := by
    unfold ScatterDims.window
    rw [dif_pos ((mem_kept _ _).mpr (fun h => absurd (congrArg Fin.val (List.mem_singleton.mp h)) Nat.one_ne_zero))]
    rfl
  have hi0 : (i 0).val < N := (i 0).isLt
  have hi1 : (i 1).val < C := (i 1).isLt
  have hj1 : (j 1).val < C := (j 1).isLt
  unfold ScatterDims.resultIdx?
  constructor
  · intro h
    split at h
    · rename_i hall
      have h' := Option.some.inj h
      have e0 : (ScatterDims.start (s := ⟨2, ![N, C]⟩) (si := ⟨2, ![E, 1]⟩) (u := ⟨2, ![E, C]⟩) ⟨[1], [0], [0], 1, wf⟩ j idx 0 + (ScatterDims.window (s := ⟨2, ![N, C]⟩) (si := ⟨2, ![E, 1]⟩) (u := ⟨2, ![E, C]⟩) ⟨[1], [0], [0], 1, wf⟩ j 0 : Nat)).toNat = (i 0).val := congrArg Fin.val (congrFun h' 0)
      have e1 : (ScatterDims.start (s := ⟨2, ![N, C]⟩) (si := ⟨2, ![E, 1]⟩) (u := ⟨2, ![E, C]⟩) ⟨[1], [0], [0], 1, wf⟩ j idx 1 + (ScatterDims.window (s := ⟨2, ![N, C]⟩) (si := ⟨2, ![E, 1]⟩) (u := ⟨2, ![E, C]⟩) ⟨[1], [0], [0], 1, wf⟩ j 1 : Nat)).toNat = (i 1).val := congrArg Fin.val (congrFun h' 1)
      have c0 := (hall 0).1
      rw [hst0, hw0] at e0 c0
      rw [hst1, hw1] at e1
      refine ⟨by omega, Fin.ext (by omega)⟩
    · exact absurd h (by simp)
  · rintro ⟨h0, h1⟩
    have h1' : (j 1).val = (i 1).val := congrArg Fin.val h1
    have hall : ∀ a, 0 ≤ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) ∧ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) < ((⟨2, ![N, C]⟩ : Shape).size a : Nat) := by
      intro a
      rcases axis2_cases a with rfl | rfl
      · rw [hst0, hw0]
        show 0 ≤ (idx (ix2 (j 0) 0)).toInt + ((0 : Nat) : Int) ∧ (idx (ix2 (j 0) 0)).toInt + ((0 : Nat) : Int) < (N : Int)
        omega
      · rw [hst1, hw1]
        show 0 ≤ (0 : Int) + ((j 1).val : Int) ∧ (0 : Int) + ((j 1).val : Int) < (C : Int)
        omega
    rw [dif_pos hall]
    refine congrArg some (funext fun a => Fin.ext ?_)
    rcases axis2_cases a with rfl | rfl
    · dsimp only
      rw [hst0, hw0]
      omega
    · dsimp only
      rw [hst1, hw1]
      omega

/-- A one-axis shape's only axis is axis 0. -/
theorem axis1_cases {sz : Fin 1 → Nat} (a : Fin (Shape.rank ⟨1, sz⟩)) : a = 0 := by
  rcases a with ⟨_ | n, h⟩
  · rfl
  · exact absurd h (by show ¬ (n + 1 < 1); omega)

/-- **Where a row scatter of a one-axis operand lands.** For `stablehlo.scatter` into an operand `[N]` at scatter
    indices `[E, 1]` with updates `[E]`, update_window_dims `[]`, inserted_window_dims `[0]`,
    scatter_dims_to_operand_dims `[0]` and index_vector_dim 1: update `e` lands at operand index `i` exactly when its
    scatter index `idx[e, 0]`, read signed, is `i` (so it is an index: not negative, below `N`). -/
theorem scatter_rows1_resultIdx {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (idx : IVec ⟨2, ![E, 1]⟩ w) (j : (⟨1, ![E]⟩ : Shape).Idx) (i : (⟨1, ![N]⟩ : Shape).Idx) :
    d.resultIdx? j idx = some i ↔ (idx (ix2 (j 0) 0)).toInt = ((i 0).val : Int) := by
  obtain ⟨uw, iw, sd, iv, wf⟩ := d
  dsimp only at hu hi hs hv
  subst hu hi hs hv
  have hst0 : ScatterDims.start (s := ⟨1, ![N]⟩) (si := ⟨2, ![E, 1]⟩) (u := ⟨1, ![E]⟩) ⟨[], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hw0 : ScatterDims.window (s := ⟨1, ![N]⟩) (si := ⟨2, ![E, 1]⟩) (u := ⟨1, ![E]⟩) ⟨[], [0], [0], 1, wf⟩ j 0 = 0 := by
    unfold ScatterDims.window
    rw [dif_neg (fun h => (mem_kept _ _).mp h (List.mem_singleton.mpr rfl))]
  have hi0 : (i 0).val < N := (i 0).isLt
  unfold ScatterDims.resultIdx?
  constructor
  · intro h
    split at h
    · rename_i hall
      have h' := Option.some.inj h
      have e0 : (ScatterDims.start (s := ⟨1, ![N]⟩) (si := ⟨2, ![E, 1]⟩) (u := ⟨1, ![E]⟩) ⟨[], [0], [0], 1, wf⟩ j idx 0 + (ScatterDims.window (s := ⟨1, ![N]⟩) (si := ⟨2, ![E, 1]⟩) (u := ⟨1, ![E]⟩) ⟨[], [0], [0], 1, wf⟩ j 0 : Nat)).toNat = (i 0).val := congrArg Fin.val (congrFun h' 0)
      have c0 := (hall 0).1
      rw [hst0, hw0] at e0 c0
      omega
    · exact absurd h (by simp)
  · intro h0
    have hall : ∀ a, 0 ≤ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) ∧ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) < ((⟨1, ![N]⟩ : Shape).size a : Nat) := by
      intro a
      obtain rfl := axis1_cases a
      rw [hst0, hw0]
      show 0 ≤ (idx (ix2 (j 0) 0)).toInt + ((0 : Nat) : Int) ∧ (idx (ix2 (j 0) 0)).toInt + ((0 : Nat) : Int) < (N : Int)
      omega
    rw [dif_pos hall]
    refine congrArg some (funext fun a => Fin.ext ?_)
    obtain rfl := axis1_cases a
    dsimp only
    rw [hst0, hw0]
    omega

end Idealize.ShloMosaic.GatherScatterRows
-- ==== Proof.RefBridge.lean ====
/-
  The reference, read against the shared whole-array functions.
  * The degree vectors the second layer computes again are the first layer's (the same operations of the same
    indices).
  * Layer 1 followed by the second layer's scaling by the out-degrees (`main_v43`) is
    `scaleRows (dense agg₁ indeg W1 b1) outdeg`; layer 2 (`main_v61`) is `dense agg₂ indeg W2 b2`.
  * The result (`main_v85`): edge `e` gathers row `rs e` (along the sources) and row `rd e` (along the destinations)
    of the node features `h`, and returns their dot product divided by the product of the two floored norms. By the
    cosine law that is the dot product of the two rows each divided by its own floored norm — the rows of
    `normalizeRows h`, gathered the same way.
-/
import proofs.«164421_j43851616092221_2_alg».proof.Proof.Gen.ReferenceIdeal.Read
import proofs.«164421_j43851616092221_2_alg».proof.Proof.Spec
import proofs.«164421_j43851616092221_2_alg».proof.Proof.LibCosineLaw
import proofs.«164421_j43851616092221_2_alg».proof.Proof.LibGatherScatterRows
import proofs.«164421_j43851616092221_2_alg».proof.Proof.LibColumnLayout
import Idealize.ShloMosaic.Lib.ValueLayout

set_option maxRecDepth 16384

noncomputable section

open scoped BigOperators

namespace Cert.ReferenceIdeal.Bridge

open Cert.ReferenceIdeal Cert.ReferenceIdeal.Gen Cert.ReferenceIdeal.Read Idealize.ShloMosaic Idealize.ShloMosaic.ValueIdx
open Cert.Gcn Cert.Gcn.Spec Cert.Gcn.Layout Idealize.ShloMosaic.GatherScatterRows

/-- Two index functions given by the same coordinates are equal (two axes, or one). -/
macro "idx_eq2" : tactic => `(tactic| (funext a; apply Fin.ext; match a with | ⟨0, _⟩ => rfl | ⟨1, _⟩ => rfl))
macro "idx_eq1" : tactic => `(tactic| (funext a; apply Fin.ext; match a with | ⟨0, _⟩ => rfl))
macro "idx_eq" : tactic => `(tactic| first | idx_eq2 | idx_eq1)

variable (x0 : (⟨S40000x2, .f32⟩ : BufTy).Contents (Elt Ideal)) (x1 x2 : (⟨S640000, .i32⟩ : BufTy).Contents (Elt Ideal))
  (x3 : (⟨S2x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-! ## The shared functions read at an index given by its coordinates -/

theorem dense_apply {K : ℕ} (agg : (⟨2, ![40000, K]⟩ : Shape).Idx → EReal) (deg : (⟨2, ![40000, 1]⟩ : Shape).Idx → EReal)
    (w : (⟨2, ![K, 128]⟩ : Shape).Idx → EReal) (b : (⟨2, ![1, 128]⟩ : Shape).Idx → EReal) (n : Fin 40000) (j : Fin 128) :
    dense agg deg w b (ix2 n j)
      = (∑ k : Fin K, (agg (ix2 n k) * Ideal.rsqrt (deg (ix2 n (0 : Fin 1)))) * w (ix2 k j)) + b (ix2 (0 : Fin 1) j) := by
  have e0 : (ix2 n j : (⟨2, ![40000, 128]⟩ : Shape).Idx) 0 = n := Fin.ext rfl
  have e1 : (ix2 n j : (⟨2, ![40000, 128]⟩ : Shape).Idx) 1 = j := Fin.ext rfl
  show (∑ k : Fin K, (agg (ix2 ((ix2 n j : (⟨2, ![40000, 128]⟩ : Shape).Idx) 0) k)
      * Ideal.rsqrt (deg (ix2 ((ix2 n j : (⟨2, ![40000, 128]⟩ : Shape).Idx) 0) (0 : Fin 1))))
      * w (ix2 k ((ix2 n j : (⟨2, ![40000, 128]⟩ : Shape).Idx) 1)))
    + b (ix2 (0 : Fin 1) ((ix2 n j : (⟨2, ![40000, 128]⟩ : Shape).Idx) 1)) = _
  rw [e0, e1]

theorem scaleRows_apply (h : (⟨2, ![40000, 128]⟩ : Shape).Idx → EReal) (deg : (⟨2, ![40000, 1]⟩ : Shape).Idx → EReal)
    (n : Fin 40000) (j : Fin 128) :
    scaleRows h deg (ix2 n j) = h (ix2 n j) * Ideal.rsqrt (deg (ix2 n (0 : Fin 1))) := by
  have e0 : (ix2 n j : (⟨2, ![40000, 128]⟩ : Shape).Idx) 0 = n := Fin.ext rfl
  show h (ix2 n j) * Ideal.rsqrt (deg (ix2 ((ix2 n j : (⟨2, ![40000, 128]⟩ : Shape).Idx) 0) (0 : Fin 1))) = _
  rw [e0]

theorem normalizeRows_apply (h : (⟨2, ![40000, 128]⟩ : Shape).Idx → EReal) (n : Fin 40000) (j : Fin 128) :
    normalizeRows h (ix2 n j) = Ideal.div (h (ix2 n j)) (rowNorm h n) := by
  have e0 : (ix2 n j : (⟨2, ![40000, 128]⟩ : Shape).Idx) 0 = n := Fin.ext rfl
  show Ideal.div (h (ix2 n j)) (rowNorm h ((ix2 n j : (⟨2, ![40000, 128]⟩ : Shape).Idx) 0)) = _
  rw [e0]

/-! ## The degrees computed again -/

theorem outdeg_again : val_main_v35 (F := Ideal) x1 = val_main_v4 (F := Ideal) x1 := by
  unfold val_main_v35 val_main_v34 val_main_v33 val_main_v32 val_main_v31 val_main_cst_6 val_main_cst_7 val_main_call2_v1
    val_main_call2_v0 val_main_cst_8 val_main_v4 val_main_v3 val_main_v2 val_main_v1 val_main_v0 val_main_cst val_main_cst_0
    val_main_call0_v1 val_main_call0_v0 val_main_cst_1
  rfl

theorem indeg_again : val_main_v39 (F := Ideal) x2 = val_main_v8 (F := Ideal) x2 := by
  unfold val_main_v39 val_main_v38 val_main_v37 val_main_v36 val_main_v31 val_main_cst_6 val_main_cst_9 val_main_call3_v1
    val_main_call3_v0 val_main_cst_10 val_main_v8 val_main_v7 val_main_v6 val_main_v5 val_main_v0 val_main_cst val_main_cst_2
    val_main_call1_v1 val_main_call1_v0 val_main_cst_3
  rfl

/-! ## The two layers -/

/-- The second layer's neighbour sum, spelt from the first layer's scaled result: its rows gathered along the
    sources, added along the destinations. -/
theorem v53_def : val_main_v53 (F := Ideal) x0 x1 x2 x3 x4
    = Host.scatterAdd (F := Ideal) (φ := .f32) scatter_S40000x128_S640000x1_S640000x128_1_0_0_1 (val_main_v51 (F := Ideal))
        (val_main_v52 (F := Ideal) x2)
        (Host.gather (α := Ideal .f32) gather_S40000x128_S640000x1_S640000x128_1_0_n_n_0_1_1128
          (val_main_v43 (F := Ideal) x0 x1 x2 x3 x4) (val_main_v49 (F := Ideal) x1)) := by
  unfold val_main_v53 val_main_v50
  rfl

theorem layer1_eq (hc : S40000.ShapeCasts S40000x1) (hr : S128.ShapeCasts S1x128) :
    scaleRows (dense (val_main_v22 (F := Ideal) x0 x1 x2) (shapeCast S40000x1 (val_main_v8 (F := Ideal) x2) hc) x3
        (shapeCast S1x128 x4 hr)) (shapeCast S40000x1 (val_main_v4 (F := Ideal) x1) hc)
      = val_main_v43 (F := Ideal) x0 x1 x2 x3 x4 := by
  funext i
  obtain ⟨n, j, rfl⟩ : ∃ (n : Fin 40000) (j : Fin 128), i = ix2 n j := ⟨i 0, i 1, eq_ix2 i⟩
  have hl : ∀ k : Fin 2, lidx_main_v27 (ix2 n j) k = ix2 n k := fun k => by idx_eq
  have hr' : ∀ k : Fin 2, ridx_main_v27 (ix2 n j) k = ix2 k j := fun k => by idx_eq
  have h42 : idx_main_v42 (ix2 n j) = ix2 n (0 : Fin 1) := by idx_eq
  have h41 : idx_main_v41 (ix2 n (0 : Fin 1)) = ix1 n := by idx_eq
  have h29 : idx_main_v29 (ix2 n j) = ix2 (0 : Fin 1) j := by idx_eq
  have h28 : idx_main_v28 (ix2 (0 : Fin 1) j) = ix1 j := by idx_eq
  have h25 : ∀ k : Fin 2, idx_main_v25 (ix2 n k) = ix2 n (0 : Fin 1) := fun k => by idx_eq
  have h24 : idx_main_v24 (ix2 n (0 : Fin 1)) = ix1 n := by idx_eq
  rw [scaleRows_apply, dense_apply, shapeCast_a_a1_apply, shapeCast_a_a1_apply, shapeCast_a_1a_apply]
  rw [val_main_v43_apply, val_main_v30_apply, val_main_v27_apply, val_main_v29_apply, val_main_v42_apply, h29, h42,
    val_main_v28_apply, val_main_v41_apply, h28, h41, val_main_v40_apply, outdeg_again,
    Ideal.mulf_def, Ideal.addf_def, Ideal.hostUnary_rsqrt_def]
  have hsum : ∑ k : Fin 2, (val_main_v26 (F := Ideal) x0 x1 x2) (lidx_main_v27 (ix2 n j) k) * x3 (ridx_main_v27 (ix2 n j) k)
      = ∑ k : Fin 2, (val_main_v22 (F := Ideal) x0 x1 x2 (ix2 n k) * Ideal.rsqrt (val_main_v8 (F := Ideal) x2 (ix1 n))) * x3 (ix2 k j) :=
    Finset.sum_congr rfl fun k _ => by
      rw [hl k, hr' k, val_main_v26_apply, val_main_v25_apply, h25 k, val_main_v24_apply, h24, val_main_v23_apply,
        Ideal.mulf_def, Ideal.hostUnary_rsqrt_def]
  rw [hsum]

theorem layer2_eq (hc : S40000.ShapeCasts S40000x1) (hr : S128.ShapeCasts S1x128) :
    dense (val_main_v53 (F := Ideal) x0 x1 x2 x3 x4) (shapeCast S40000x1 (val_main_v8 (F := Ideal) x2) hc) x5
        (shapeCast S1x128 x6 hr)
      = val_main_v61 (F := Ideal) x0 x1 x2 x3 x4 x5 x6 := by
  funext i
  obtain ⟨n, j, rfl⟩ : ∃ (n : Fin 40000) (j : Fin 128), i = ix2 n j := ⟨i 0, i 1, eq_ix2 i⟩
  have hl : ∀ k : Fin 128, lidx_main_v58 (ix2 n j) k = ix2 n k := fun k => by idx_eq
  have hr' : ∀ k : Fin 128, ridx_main_v58 (ix2 n j) k = ix2 k j := fun k => by idx_eq
  have h60 : idx_main_v60 (ix2 n j) = ix2 (0 : Fin 1) j := by idx_eq
  have h59 : idx_main_v59 (ix2 (0 : Fin 1) j) = ix1 j := by idx_eq
  have h56 : ∀ k : Fin 128, idx_main_v56 (ix2 n k) = ix2 n (0 : Fin 1) := fun k => by idx_eq
  have h55 : idx_main_v55 (ix2 n (0 : Fin 1)) = ix1 n := by idx_eq
  rw [dense_apply, shapeCast_a_a1_apply, shapeCast_a_1a_apply]
  rw [val_main_v61_apply, val_main_v58_apply, val_main_v60_apply, h60, val_main_v59_apply, h59, Ideal.addf_def]
  have hsum : ∑ k : Fin 128, (val_main_v57 (F := Ideal) x0 x1 x2 x3 x4) (lidx_main_v58 (ix2 n j) k) * x5 (ridx_main_v58 (ix2 n j) k)
      = ∑ k : Fin 128, (val_main_v53 (F := Ideal) x0 x1 x2 x3 x4 (ix2 n k) * Ideal.rsqrt (val_main_v8 (F := Ideal) x2 (ix1 n))) * x5 (ix2 k j) :=
    Finset.sum_congr rfl fun k _ => by
      rw [hl k, hr' k, val_main_v57_apply, val_main_v56_apply, h56 k, val_main_v55_apply, h55, val_main_v54_apply, indeg_again,
        Ideal.mulf_def, Ideal.hostUnary_rsqrt_def]
  rw [hsum]

/-! ## The cosine stage -/

/-- The row of the node features an edge reads along one of its two index arrays: the start index, read signed and
    clamped into the rows. -/
def rowOf (idx : IVec S640000x1 32) (e : Fin 640000) : Fin 40000 :=
  ⟨clampRow 40000 (idx (ix2 e (0 : Fin 1))), clampRow_lt (by norm_num) _⟩

/-- A row gather of a `[40000, 128]` array read at `(e, k)`. -/
theorem gather_at (h : S40000x128.Idx → EReal) (idx : IVec S640000x1 32) (e : Fin 640000) (k : Fin 128) :
    Host.gather gather_S40000x128_S640000x1_S640000x128_1_0_n_n_0_1_1128 h idx (ix2 e k) = h (ix2 (rowOf idx e) k) :=
  gather_rows2_apply (by norm_num) gather_S40000x128_S640000x1_S640000x128_1_0_n_n_0_1_1128 rfl rfl rfl rfl rfl rfl h idx (ix2 e k)

theorem pairDot_apply (s d : (⟨2, ![640000, 128]⟩ : Shape).Idx → EReal) (e : Fin 640000) :
    pairDot s d (ix1 e) = ∑ k : Fin 128, s (ix2 e k) * d (ix2 e k) := by
  have e0 : (ix1 e : (⟨1, ![640000]⟩ : Shape).Idx) 0 = e := Fin.ext rfl
  show ∑ k : Fin 128, s (ix2 ((ix1 e : (⟨1, ![640000]⟩ : Shape).Idx) 0) k)
    * d (ix2 ((ix1 e : (⟨1, ![640000]⟩ : Shape).Idx) 0) k) = _
  rw [e0]

theorem result_eq :
    pairDot (Host.gather gather_S40000x128_S640000x1_S640000x128_1_0_n_n_0_1_1128
        (normalizeRows (val_main_v61 (F := Ideal) x0 x1 x2 x3 x4 x5 x6)) (val_main_v67 (F := Ideal) x1))
      (Host.gather gather_S40000x128_S640000x1_S640000x128_1_0_n_n_0_1_1128
        (normalizeRows (val_main_v61 (F := Ideal) x0 x1 x2 x3 x4 x5 x6)) (val_main_v74 (F := Ideal) x2))
      = val_main_v85 (F := Ideal) x0 x1 x2 x3 x4 x5 x6 := by
  funext e
  obtain ⟨e', rfl⟩ : ∃ e' : Fin 640000, e = ix1 e' := ⟨e 0, eq_ix1 e⟩
  have h77 : ∀ k : Fin 128, idx_main_v77 (ix1 e') k = ix2 e' k := fun k => by idx_eq
  have hc4 : ∀ k : Fin 128, idx_main_call4_v1 (ix1 e') k = ix2 e' k := fun k => by idx_eq
  have hc5 : ∀ k : Fin 128, idx_main_call5_v1 (ix1 e') k = ix2 e' k := fun k => by idx_eq
  have z18 : val_main_cst_18 (F := Ideal) (Shape.Idx.first h_S_) = 0 := by unfold val_main_cst_18; exact Ideal.ofBits_zero_f32
  have z4 : val_main_call4_cst (F := Ideal) (Shape.Idx.first h_S_) = 0 := by unfold val_main_call4_cst; exact Ideal.ofBits_zero_f32
  have z5 : val_main_call5_cst (F := Ideal) (Shape.Idx.first h_S_) = 0 := by unfold val_main_call5_cst; exact Ideal.ofBits_zero_f32
  have f19 : val_main_cst_19 (F := Ideal) (idx_main_v79 (ix1 e')) = Ideal.ofBits .f32 0x322BCC77#32 := by unfold val_main_cst_19; rfl
  have f20 : val_main_cst_20 (F := Ideal) (idx_main_v82 (ix1 e')) = Ideal.ofBits .f32 0x322BCC77#32 := by unfold val_main_cst_20; rfl
  have gs : ∀ k : Fin 128, val_main_v68 (F := Ideal) x0 x1 x2 x3 x4 x5 x6 (ix2 e' k) = val_main_v61 (F := Ideal) x0 x1 x2 x3 x4 x5 x6 (ix2 (rowOf (val_main_v67 (F := Ideal) x1) e') k) :=
    fun k => by unfold val_main_v68; exact gather_at _ _ _ _
  have gd : ∀ k : Fin 128, val_main_v75 (F := Ideal) x0 x1 x2 x3 x4 x5 x6 (ix2 e' k) = val_main_v61 (F := Ideal) x0 x1 x2 x3 x4 x5 x6 (ix2 (rowOf (val_main_v74 (F := Ideal) x2) e') k) :=
    fun k => by unfold val_main_v75; exact gather_at _ _ _ _
  have s1 : ∑ k : Fin 128, val_main_v76 (F := Ideal) x0 x1 x2 x3 x4 x5 x6 (idx_main_v77 (ix1 e') k)
      = ∑ k : Fin 128, val_main_v61 (F := Ideal) x0 x1 x2 x3 x4 x5 x6 (ix2 (rowOf (val_main_v67 (F := Ideal) x1) e') k) * val_main_v61 (F := Ideal) x0 x1 x2 x3 x4 x5 x6 (ix2 (rowOf (val_main_v74 (F := Ideal) x2) e') k) :=
    Finset.sum_congr rfl fun k _ => by rw [h77 k, val_main_v76_apply, Ideal.mulf_def, gs k, gd k]
  have s4 : ∑ k : Fin 128, val_main_call4_v0 (F := Ideal) x0 x1 x2 x3 x4 x5 x6 (idx_main_call4_v1 (ix1 e') k)
      = ∑ k : Fin 128, val_main_v61 (F := Ideal) x0 x1 x2 x3 x4 x5 x6 (ix2 (rowOf (val_main_v67 (F := Ideal) x1) e') k) * val_main_v61 (F := Ideal) x0 x1 x2 x3 x4 x5 x6 (ix2 (rowOf (val_main_v67 (F := Ideal) x1) e') k) :=
    Finset.sum_congr rfl fun k _ => by rw [hc4 k, val_main_call4_v0_apply, Ideal.mulf_def, gs k]
  have s5 : ∑ k : Fin 128, val_main_call5_v0 (F := Ideal) x0 x1 x2 x3 x4 x5 x6 (idx_main_call5_v1 (ix1 e') k)
      = ∑ k : Fin 128, val_main_v61 (F := Ideal) x0 x1 x2 x3 x4 x5 x6 (ix2 (rowOf (val_main_v74 (F := Ideal) x2) e') k) * val_main_v61 (F := Ideal) x0 x1 x2 x3 x4 x5 x6 (ix2 (rowOf (val_main_v74 (F := Ideal) x2) e') k) :=
    Finset.sum_congr rfl fun k _ => by rw [hc5 k, val_main_call5_v0_apply, Ideal.mulf_def, gd k]
  have l1 : ∑ k : Fin 128, Host.gather gather_S40000x128_S640000x1_S640000x128_1_0_n_n_0_1_1128 (normalizeRows (val_main_v61 (F := Ideal) x0 x1 x2 x3 x4 x5 x6)) (val_main_v67 (F := Ideal) x1) (ix2 e' k)
        * Host.gather gather_S40000x128_S640000x1_S640000x128_1_0_n_n_0_1_1128 (normalizeRows (val_main_v61 (F := Ideal) x0 x1 x2 x3 x4 x5 x6)) (val_main_v74 (F := Ideal) x2) (ix2 e' k)
      = ∑ k : Fin 128, Ideal.div (val_main_v61 (F := Ideal) x0 x1 x2 x3 x4 x5 x6 (ix2 (rowOf (val_main_v67 (F := Ideal) x1) e') k)) (rowNorm (val_main_v61 (F := Ideal) x0 x1 x2 x3 x4 x5 x6) (rowOf (val_main_v67 (F := Ideal) x1) e'))
        * Ideal.div (val_main_v61 (F := Ideal) x0 x1 x2 x3 x4 x5 x6 (ix2 (rowOf (val_main_v74 (F := Ideal) x2) e') k)) (rowNorm (val_main_v61 (F := Ideal) x0 x1 x2 x3 x4 x5 x6) (rowOf (val_main_v74 (F := Ideal) x2) e')) :=
    Finset.sum_congr rfl fun k _ => by rw [gather_at, gather_at, normalizeRows_apply, normalizeRows_apply]
  rw [pairDot_apply, l1]
  rw [val_main_v85_apply, val_main_v84_apply, val_main_v80_apply, val_main_v83_apply, val_main_v78_apply, val_main_v81_apply,
    val_main_call4_v1_apply, val_main_call5_v1_apply, val_main_v77_apply, val_main_v79_apply, val_main_v82_apply,
    z18, z4, z5, f19, f20, s1, s4, s5, zero_add, zero_add, zero_add]
  generalize val_main_v61 (F := Ideal) x0 x1 x2 x3 x4 x5 x6 = h
  generalize rowOf (val_main_v67 (F := Ideal) x1) e' = rs
  generalize rowOf (val_main_v74 (F := Ideal) x2) e' = rd
  unfold rowNorm floorε
  exact cosine_law Finset.univ _ _ (max_floor_pos _) (max_floor_pos _)

end Cert.ReferenceIdeal.Bridge

end
-- ==== Proof.KernelValue.lean ====
/-
  The idealized kernel's result as a function of the seven argument arrays, by the reference's own stages.
  The first call leaves `scaleRows (dense agg₁ indeg W1 b1) outdeg` of the buffers it is entered with, and those are
  the reference's neighbour sum and degree vectors: so its result is the reference's `main_v43`. The host operations
  between the calls are the reference's (gather along the sources, scatter-add along the destinations), so the
  second call is entered with the reference's `main_v53` and leaves `normalizeRows` of the reference's node features
  `main_v61`. The third call is entered with the rows of that array gathered along the sources and along the
  destinations and leaves their row-by-row dot products, which by the cosine law is the reference's result `main_v85`.
-/
import proofs.«164421_j43851616092221_2_alg».proof.Proof.KernelRun
import proofs.«164421_j43851616092221_2_alg».proof.Proof.HostReads
import proofs.«164421_j43851616092221_2_alg».proof.Proof.Layer1
import proofs.«164421_j43851616092221_2_alg».proof.Proof.Layer2
import proofs.«164421_j43851616092221_2_alg».proof.Proof.EdgeDot
import proofs.«164421_j43851616092221_2_alg».proof.Proof.RefBridge

set_option maxRecDepth 16384

noncomputable section

open Idealize.ShloMosaic Idealize.ShloMosaic.TcCoe Idealize.SL.Sem

namespace Cert.KernelIdeal.Whole

open Cert.KernelIdeal Cert.KernelIdeal.Gen Cert.KernelIdeal.HostReads Cert.Gcn.Spec

variable (m : (ℓ : Loc nD τ sig) → Buf (Elt Ideal) ℓ) (ρ : Dev nD → PrngReg) (c : Dev nD)

/-- The first call's result is the reference's layer 1 scaled by the out-degrees. -/
theorem first_result : W6 m ρ c (Proc.devRef .tc main_v26)
    = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (show W6 m ρ c (Proc.devRef .tc main_v26) = (dat0 (V5 m ρ) c).arrAt 5 cfg0.N from W6_arr m ρ c 5).trans ?_
  rw [Layer1.final (V5 m ρ) c]
  show scaleRows (dense (W5 m ρ c (Proc.devRef .tc main_v22)) (W5 m ρ c (Proc.devRef .tc main_v23))
    (W5 m ρ c (Proc.devRef .tc main_arg3)) (W5 m ρ c (Proc.devRef .tc main_v25))) (W5 m ρ c (Proc.devRef .tc main_v24)) = _
  rw [W5_v22, W5_v23, W5_v24, W5_v25, at5_arg3]
  exact Cert.ReferenceIdeal.Bridge.layer1_eq _ _ _ _ _ _ _

/-- The second call's result is the reference's node features with every row divided by its floored norm. -/
theorem second_result : W8 m ρ c (Proc.devRef .tc main_v39)
    = normalizeRows (Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (show W8 m ρ c (Proc.devRef .tc main_v39) = (dat1 (V7 m ρ) c).arrAt 4 cfg1.N from W8_arr m ρ c 4).trans ?_
  rw [Layer2.final (V7 m ρ) c]
  show normalizeRows (dense (W7 m ρ c (Proc.devRef .tc main_v36)) (W7 m ρ c (Proc.devRef .tc main_v37))
    (W7 m ρ c (Proc.devRef .tc main_arg5)) (W7 m ρ c (Proc.devRef .tc main_v38))) = _
  rw [W7_v36, W7_v37, W7_v38, at7_arg5, first_result]
  rw [← Cert.ReferenceIdeal.Bridge.v53_def]
  exact congrArg normalizeRows (Cert.ReferenceIdeal.Bridge.layer2_eq _ _ _ _ _ _ _ _ _)

/-- The kernel's result is the reference's. -/
theorem result_eq : W10 m ρ c (Proc.devRef .tc main_v54)
    = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (show W10 m ρ c (Proc.devRef .tc main_v54) = (dat2 (V9 m ρ) c).arrAt 2 cfg2.N from W10_arr m ρ c 2).trans ?_
  rw [EdgeDot.final (V9 m ρ) c]
  show pairDot (W9 m ρ c (Proc.devRef .tc main_v46)) (W9 m ρ c (Proc.devRef .tc main_v53)) = _
  rw [W9_v46, W9_v53, second_result]
  exact Cert.ReferenceIdeal.Bridge.result_eq _ _ _ _ _ _ _

end Cert.KernelIdeal.Whole

end
-- ==== Proof.lean ====
/-
  The certificate of one kernel against its reference: edge-pair cosine similarity of the node features of a
  two-layer graph convolution (40000 nodes, 640000 edges, 128 hidden features).

  Both programs compute the same node features `h` (two layers of: neighbour sum, scaling by inverse square roots of
  the degrees, a dense product, a bias). The reference then returns, per edge `(s, d)`,
  `(∑ k, h (s, k) · h (d, k)) / (max ‖h s‖ ε · max ‖h d‖ ε)`; the kernel divides every row of `h` by `max ‖row‖ ε`
  once per node, gathers the normalised rows and returns their dot product. At the exact values the two agree: both
  divisors are at least `ε > 0`, division by them is multiplication by a nonnegative real number, and such a factor
  moves out of a finite sum of extended reals whatever the summands are. No finiteness of the inputs is used.

  The three frames are the generated ones (the reference's is its generated run with the result dropped); the ideal
  pass rewrote nothing, so `preserves` is `True`.
-/
import proofs.«164421_j43851616092221_2_alg».proof.Defs
import proofs.«164421_j43851616092221_2_alg».proof.Proof.Gen.Kernel
import proofs.«164421_j43851616092221_2_alg».proof.Proof.Gen.Kernel.Frame
import proofs.«164421_j43851616092221_2_alg».proof.Proof.Gen.KernelIdeal
import proofs.«164421_j43851616092221_2_alg».proof.Proof.Gen.KernelIdeal.Frame
import proofs.«164421_j43851616092221_2_alg».proof.Proof.Gen.ReferenceIdeal
import proofs.«164421_j43851616092221_2_alg».proof.Proof.Gen.ReferenceIdeal.Run
import proofs.«164421_j43851616092221_2_alg».proof.Proof.Gen.ReferenceIdeal.Read
import proofs.«164421_j43851616092221_2_alg».proof.Proof.Gen.Pre_finite_inputs
import proofs.«164421_j43851616092221_2_alg».proof.Proof.KernelRun
import proofs.«164421_j43851616092221_2_alg».proof.Proof.KernelValue

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the result at the reference's last stage of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v85_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
